-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v40)) (v1 : (c : Dev Cert.KernelIdeal.nD) → Buf (Elt Ideal) ((c.tc : Thread Cert.KernelIdeal.nD Cert.KernelIdeal.τ).loc Cert.KernelIdeal.main_v26_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_v26_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S800000 : Shape := ⟨1, ![800000]⟩
abbrev S256x64 : Shape := ⟨2, ![256, 64]⟩
abbrev S256 : Shape := ⟨1, ![256]⟩
abbrev S128x256 : Shape := ⟨2, ![128, 256]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S64x64 : Shape := ⟨2, ![64, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_
  bcast_S_S64x64 : S_.BroadcastsInDim S64x64 (![] : Fin 0 → Fin S64x64.rank)
  reducesTo_S64x64_S_d0_1 : S64x64.ReducesTo [0, 1] S_

variable [Facts]

def fn_part3 {F : FTy → Type} [FloatOps F] (main_arg13 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  main_v58

def fn_part2 {F : FTy → Type} [FloatOps F] (main_arg9 : FVec F S1x64 .f32) (main_arg10 : FVec F S1 .f32) (main_arg11 : FVec F S64x64 .f32) (main_arg12 : FVec F S64x64 .f32) (main_arg13 : FVec F S64 .f32) (main_v33 : IVec S_ 1) : IVec S_ 1 :=
  let main_v34 : FVec F S1x64 .f32 := Host.absf main_arg9
  let main_cst_12 : FVec F S_ .f32 := constant S_ .f32 0x7F800000#32
  let main_v35 : FVec F S1x64 .f32 := broadcastInDim S1x64 ![] bcast_S_S1x64 main_cst_12
  let main_v36 : IVec S1x64 1 := cmpf .olt main_v34 main_v35
  let main_c_13 : IVec S_ 1 := constantI S_ 1 1#1
  let main_v37 : IVec S_ 1 := (fun x v => Host.reduce IntOp.andi x v reducesTo_S1x64_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_arg13 main_v48 main_v49 main_v50

def fn_part1 {F : FTy → Type} [FloatOps F] (main_arg6 : FVec F S128 .f32) (main_arg7 : FVec F S64x128 .f32) (main_arg8 : FVec F S64 .f32) (main_arg9 : FVec F S1x64 .f32) (main_arg10 : FVec F S1 .f32) (main_arg11 : FVec F S64x64 .f32) (main_arg12 : FVec F S64x64 .f32) (main_arg13 : FVec F S64 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S64x128 .f32 := Host.absf main_arg7
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x64 .f32) (main_arg1 : IVec S800000 32) (main_arg2 : IVec S800000 32) (main_arg3 : FVec F S256x64 .f32) (main_arg4 : FVec F S256 .f32) (main_arg5 : FVec F S128x256 .f32) (main_arg6 : FVec F S128 .f32) (main_arg7 : FVec F S64x128 .f32) (main_arg8 : FVec F S64 .f32) (main_arg9 : FVec F S1x64 .f32) (main_arg10 : FVec F S1 .f32) (main_arg11 : FVec F S64x64 .f32) (main_arg12 : FVec F S64x64 .f32) (main_arg13 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S256x64 .f32 := Host.absf main_arg3
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg5
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg6 main_arg7 main_arg8 main_arg9 main_arg10 main_arg11 main_arg12 main_arg13 main_v13 main_v16
-- ==== Kernel.lean ====
abbrev S100000x64 : Shape := ⟨2, ![100000, 64]⟩
abbrev S800000 : Shape := ⟨1, ![800000]⟩
abbrev S256x64 : Shape := ⟨2, ![256, 64]⟩
abbrev S256 : Shape := ⟨1, ![256]⟩
abbrev S128x256 : Shape := ⟨2, ![128, 256]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S64x64 : Shape := ⟨2, ![64, 64]⟩
abbrev S_ : Shape := ⟨0, ![]⟩
abbrev S800000x1 : Shape := ⟨2, ![800000, 1]⟩
abbrev S800000x64 : Shape := ⟨2, ![800000, 64]⟩
abbrev S64x256 : Shape := ⟨2, ![64, 256]⟩
abbrev S256x128 : Shape := ⟨2, ![256, 128]⟩
abbrev S128x64 : Shape := ⟨2, ![128, 64]⟩
abbrev S64x1 : Shape := ⟨2, ![64, 1]⟩
abbrev S1x256 : Shape := ⟨2, ![1, 256]⟩
abbrev S1x128 : Shape := ⟨2, ![1, 128]⟩
abbrev S1x1 : Shape := ⟨2, ![1, 1]⟩
abbrev S3200x64 : Shape := ⟨2, ![3200, 64]⟩
abbrev S3200x1 : Shape := ⟨2, ![3200, 1]⟩
abbrev S3200x256 : Shape := ⟨2, ![3200, 256]⟩
abbrev S3200x128 : Shape := ⟨2, ![3200, 128]⟩
abbrev S100000 : Shape := ⟨1, ![100000]⟩
abbrev S100000x1 : Shape := ⟨2, ![100000, 1]⟩
abbrev S4000x64 : Shape := ⟨2, ![4000, 64]⟩
abbrev S4000x1 : Shape := ⟨2, ![4000, 1]⟩
abbrev S4000 : Shape := ⟨1, ![4000]⟩

abbrev nBuf : Space → Nat
  | .hbm => 63
  | .vmem => 27
  | .smem => 0
  | _ => 0

abbrev bufTy : (tb : Table) → Fin (tcTables nBuf tb) → BufTy
  | .hbm, ⟨0, _⟩ => ⟨S100000x64, .f32⟩
  | .hbm, ⟨1, _⟩ => ⟨S800000, .i32⟩
  | .hbm, ⟨2, _⟩ => ⟨S800000, .i32⟩
  | .hbm, ⟨3, _⟩ => ⟨S256x64, .f32⟩
  | .hbm, ⟨4, _⟩ => ⟨S256, .f32⟩
  | .hbm, ⟨5, _⟩ => ⟨S128x256, .f32⟩
  | .hbm, ⟨6, _⟩ => ⟨S128, .f32⟩
  | .hbm, ⟨7, _⟩ => ⟨S64x128, .f32⟩
  | .hbm, ⟨8, _⟩ => ⟨S64, .f32⟩
  | .hbm, ⟨9, _⟩ => ⟨S1x64, .f32⟩
  | .hbm, ⟨10, _⟩ => ⟨S1, .f32⟩
  | .hbm, ⟨11, _⟩ => ⟨S64x64, .f32⟩
  | .hbm, ⟨12, _⟩ => ⟨S64x64, .f32⟩
  | .hbm, ⟨13, _⟩ => ⟨S64, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x64, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x64, .f32⟩
  | .hbm, ⟨32, _⟩ => ⟨S64x256, .f32⟩
  | .hbm, ⟨33, _⟩ => ⟨S64x256, .bf16⟩
  | .hbm, ⟨34, _⟩ => ⟨S256x128, .f32⟩
  | .hbm, ⟨35, _⟩ => ⟨S256x128, .bf16⟩
  | .hbm, ⟨36, _⟩ => ⟨S128x64, .f32⟩
  | .hbm, ⟨37, _⟩ => ⟨S128x64, .bf16⟩
  | .hbm, ⟨38, _⟩ => ⟨S64x1, .f32⟩
  | .hbm, ⟨39, _⟩ => ⟨S64x1, .bf16⟩
  | .hbm, ⟨40, _⟩ => ⟨S1x256, .f32⟩
  | .hbm, ⟨41, _⟩ => ⟨S1x128, .f32⟩
  | .hbm, ⟨42, _⟩ => ⟨S1x64, .f32⟩
  | .hbm, ⟨43, _⟩ => ⟨S1x1, .f32⟩
  | .hbm, ⟨44, _⟩ => ⟨S800000x64, .f32⟩
  | .hbm, ⟨45, _⟩ => ⟨S800000x1, .f32⟩
  | .hbm, ⟨46, _⟩ => ⟨S_, .f32⟩
  | .hbm, ⟨47, _⟩ => ⟨S100000x64, .f32⟩
  | .hbm, ⟨48, _⟩ => ⟨S800000x1, .i32⟩
  | .hbm, ⟨49, _⟩ => ⟨S100000x64, .f32⟩
  | .hbm, ⟨50, _⟩ => ⟨S_, .f32⟩
  | .hbm, ⟨51, _⟩ => ⟨S800000, .f32⟩
  | .hbm, ⟨52, _⟩ => ⟨S_, .f32⟩
  | .hbm, ⟨53, _⟩ => ⟨S100000, .f32⟩
  | .hbm, ⟨54, _⟩ => ⟨S800000x1, .i32⟩
  | .hbm, ⟨55, _⟩ => ⟨S100000, .f32⟩
  | .hbm, ⟨56, _⟩ => ⟨S100000x1, .f32⟩
  | .hbm, ⟨57, _⟩ => ⟨S64x64, .f32⟩
  | .hbm, ⟨58, _⟩ => ⟨S64x64, .bf16⟩
  | .hbm, ⟨59, _⟩ => ⟨S64x64, .f32⟩
  | .hbm, ⟨60, _⟩ => ⟨S64x64, .bf16⟩
  | .hbm, ⟨61, _⟩ => ⟨S1x64, .f32⟩
  | .hbm, ⟨62, _⟩ => ⟨S100000x64, .f32⟩
  | .local _ .vmem, ⟨0, _⟩ => ⟨S3200x64, .f32⟩
  | .local _ .vmem, ⟨1, _⟩ => ⟨S3200x64, .f32⟩
  | .local _ .vmem, ⟨2, _⟩ => ⟨S3200x64, .f32⟩
  | .local _ .vmem, ⟨3, _⟩ => ⟨S3200x64, .f32⟩
  | .local _ .vmem, ⟨4, _⟩ => ⟨S64x256, .bf16⟩
  | .local _ .vmem, ⟨5, _⟩ => ⟨S1x256, .f32⟩
  | .local _ .vmem, ⟨6, _⟩ => ⟨S256x128, .bf16⟩
  | .local _ .vmem, ⟨7, _⟩ => ⟨S1x128, .f32⟩
  | .local _ .vmem, ⟨8, _⟩ => ⟨S128x64, .bf16⟩
  | .local _ .vmem, ⟨9, _⟩ => ⟨S1x64, .f32⟩
  | .local _ .vmem, ⟨10, _⟩ => ⟨S64x1, .bf16⟩
  | .local _ .vmem, ⟨11, _⟩ => ⟨S1x1, .f32⟩
  | .local _ .vmem, ⟨12, _⟩ => ⟨S3200x64, .f32⟩
  | .local _ .vmem, ⟨13, _⟩ => ⟨S3200x64, .f32⟩
  | .local _ .vmem, ⟨14, _⟩ => ⟨S3200x1, .f32⟩
  | .local _ .vmem, ⟨15, _⟩ => ⟨S3200x1, .f32⟩
  | .local _ .vmem, ⟨16, _⟩ => ⟨S4000x64, .f32⟩
  | .local _ .vmem, ⟨17, _⟩ => ⟨S4000x64, .f32⟩
  | .local _ .vmem, ⟨18, _⟩ => ⟨S4000x64, .f32⟩
  | .local _ .vmem, ⟨19, _⟩ => ⟨S4000x64, .f32⟩
  | .local _ .vmem, ⟨20, _⟩ => ⟨S4000x1, .f32⟩
  | .local _ .vmem, ⟨21, _⟩ => ⟨S4000x1, .f32⟩
  | .local _ .vmem, ⟨22, _⟩ => ⟨S64x64, .bf16⟩
  | .local _ .vmem, ⟨23, _⟩ => ⟨S64x64, .bf16⟩
  | .local _ .vmem, ⟨24, _⟩ => ⟨S1x64, .f32⟩
  | .local _ .vmem, ⟨25, _⟩ => ⟨S4000x64, .f32⟩
  | .local _ .vmem, ⟨26, _⟩ => ⟨S4000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_v8 : Ref sig .tc := ⟨.hbm, 25, rfl⟩
abbrev main_c_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26_0 : Ref sig .tc := ⟨.hbm, 44, rfl⟩
abbrev main_v26_1 : Ref sig .tc := ⟨.hbm, 45, rfl⟩
abbrev main_cst : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_3 : Ref sig .tc := ⟨.hbm, 50, rfl⟩
abbrev main_v30 : Ref sig .tc := ⟨.hbm, 51, rfl⟩
abbrev main_cst_4 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg6_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem6_1 : DmaSem sig := 26

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x1 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S3200x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S3200x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  transposes_S256x64_S64x256_1_0 : S256x64.Transposes [1, 0] S64x256
  bitsLt_bf16_f32 : FTy.bits .bf16 < FTy.bits .f32
  transposes_S128x256_S256x128_1_0 : S128x256.Transposes [1, 0] S256x128
  transposes_S64x128_S128x64_1_0 : S64x128.Transposes [1, 0] S128x64
  transposes_S1x64_S64x1_1_0 : S1x64.Transposes [1, 0] S64x1
  shapeCasts_S256_S1x256 : S256.ShapeCasts S1x256
  shapeCasts_S128_S1x128 : S128.ShapeCasts S1x128
  shapeCasts_S64_S1x64 : S64.ShapeCasts S1x64
  shapeCasts_S1_S1x1 : S1.ShapeCasts S1x1
  inb_S3200x64_S3200x64_0_0 : ∀ a, (![0, 0] : Fin 2 → Nat) a + S3200x64.size a ≤ S3200x64.size a
  h_S3200x64 : 0 < S3200x64.numel
  shapeCasts_S3200x64_S3200x64 : S3200x64.ShapeCasts S3200x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S3200x256 : S1x256.Broadcasts S3200x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S3200x128 : S1x128.Broadcasts S3200x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S3200x64 : S1x64.Broadcasts S3200x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S3200x1 : S1x1.Broadcasts S3200x1
  broadcasts_S3200x1_S3200x64 : S3200x1.Broadcasts S3200x64
  inb_S3200x1_S3200x1_0_0 : ∀ a, (![0, 0] : Fin 2 → Nat) a + S3200x1.size a ≤ S3200x1.size a
  h_S3200x1 : 0 < S3200x1.numel
  bcast_S_S100000x64 : S_.BroadcastsInDim S100000x64 (![] : Fin 0 → Fin S100000x64.rank)
  bcast_S_S100000 : S_.BroadcastsInDim S100000 (![] : Fin 0 → Fin S100000.rank)
  shapeCasts_S100000_S100000x1 : S100000.ShapeCasts S100000x1
  transposes_S64x64_S64x64_1_0 : S64x64.Transposes [1, 0] S64x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  broadcasts_S1x64_S4000x64 : S1x64.Broadcasts S4000x64
  reduces_S4000x64_S4000 : S4000x64.Reduces [1] S4000
  shapeCasts_S4000_S4000x1 : S4000.ShapeCasts S4000x1
  gather_S100000x64_S800000x1_S800000x64_1_0_n_n_0_1_164_wf : GatherDims.WF S100000x64 S800000x1 S800000x64 [1] [0] [] [0] [] 1 ![1, 64]
  dot_S3200x64_S64x256_S3200x256_1_0_0_1_n_n_wf : DotDims.WF S3200x64 S64x256 S3200x256 [1] [0] [0] [1] [] []
  dot_S3200x256_S256x128_S3200x128_1_0_0_1_n_n_wf : DotDims.WF S3200x256 S256x128 S3200x128 [1] [0] [0] [1] [] []
  dot_S3200x128_S128x64_S3200x64_1_0_0_1_n_n_wf : DotDims.WF S3200x128 S128x64 S3200x64 [1] [0] [0] [1] [] []
  dot_S3200x64_S64x1_S3200x1_1_0_0_1_n_n_wf : DotDims.WF S3200x64 S64x1 S3200x1 [1] [0] [0] [1] [] []
  scatter_S100000x64_S800000x1_S800000x64_1_0_0_1_wf : ScatterDims.WF S100000x64 S800000x1 S800000x64 [1] [0] [0] 1
  scatter_S100000_S800000x1_S800000_n_0_0_1_wf : ScatterDims.WF S100000 S800000x1 S800000 [] [0] [0] 1
  dot_S4000x64_S64x64_S4000x64_1_0_0_1_n_n_wf : DotDims.WF S4000x64 S64x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x64.size a ≤ S800000x64.size a
  hwx0_0 : ∀ i : grid0.Coords, EltTy.bits .f32 = 32 ∨ (Rect.block (s := S800000x64) S3200x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x64.size a ≤ S800000x64.size a
  hwx0_1 : ∀ i : grid0.Coords, EltTy.bits .f32 = 32 ∨ (Rect.block (s := S800000x64) S3200x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .bf16 = 32 ∨ (Rect.block (s := S64x256) S64x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .bf16 = 32 ∨ (Rect.block (s := S256x128) S256x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .bf16 = 32 ∨ (Rect.block (s := S128x64) S128x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x1.size a ≤ S64x1.size a
  hwx0_8 : ∀ i : grid0.Coords, EltTy.bits .bf16 = 32 ∨ (Rect.block (s := S64x1) S64x1.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S3200x64.size a ≤ S800000x64.size a
  hwx0_10 : ∀ i : grid0.Coords, EltTy.bits .f32 = 32 ∨ (Rect.block (s := S800000x64) S3200x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S3200x1.size a ≤ S800000x1.size a
  hwx0_11 : ∀ i : grid0.Coords, EltTy.bits .f32 = 32 ∨ (Rect.block (s := S800000x1) S3200x1.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S100000x64.size a
  hwx1_1 : ∀ i : grid1.Coords, EltTy.bits .f32 = 32 ∨ (Rect.block (s := S100000x64) S4000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .bf16 = 32 ∨ (Rect.block (s := S64x64) S64x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .bf16 = 32 ∨ (Rect.block (s := S64x64) S64x64.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x64.size a ≤ S100000x64.size a
  hwx1_6 : ∀ i : grid1.Coords, EltTy.bits .f32 = 32 ∨ (Rect.block (s := S100000x64) S4000x64.size (cc1_transform_6 i) (hinb1_6 i)).WholeWords (EltTy.packing .f32)

variable [Facts₀]

def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def dot_S3200x64_S64x256_S3200x256_1_0_0_1_n_n : DotDims S3200x64 S64x256 S3200x256 where
  lhsContracting := [1]
  rhsContracting := [0]
  lhsNonContracting := [0]
  rhsNonContracting := [1]
  lhsBatch := []
  rhsBatch := []
  wf := dot_S3200x64_S64x256_S3200x256_1_0_0_1_n_n_wf
def dot_S3200x256_S256x128_S3200x128_1_0_0_1_n_n : DotDims S3200x256 S256x128 S3200x128 where
  lhsContracting := [1]
  rhsContracting := [0]
  lhsNonContracting := [0]
  rhsNonContracting := [1]
  lhsBatch := []
  rhsBatch := []
  wf := dot_S3200x256_S256x128_S3200x128_1_0_0_1_n_n_wf
def dot_S3200x128_S128x64_S3200x64_1_0_0_1_n_n : DotDims S3200x128 S128x64 S3200x64 where
  lhsContracting := [1]
  rhsContracting := [0]
  lhsNonContracting := [0]
  rhsNonContracting := [1]
  lhsBatch := []
  rhsBatch := []
  wf := dot_S3200x128_S128x64_S3200x64_1_0_0_1_n_n_wf
def dot_S3200x64_S64x1_S3200x1_1_0_0_1_n_n : DotDims S3200x64 S64x1 S3200x1 where
  lhsContracting := [1]
  rhsContracting := [0]
  lhsNonContracting := [0]
  rhsNonContracting := [1]
  lhsBatch := []
  rhsBatch := []
  wf := dot_S3200x64_S64x1_S3200x1_1_0_0_1_n_n_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf

abbrev win0_0 : Pipeline.Window sig grid0 :=
  Pipeline.Window.ofSpec (Memref.whole main_v6) S3200x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S3200x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v21) S64x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v25) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v26_0) S3200x64.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v26_1) S3200x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_arg0) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v36) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40) S4000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x64 : Shape := ⟨2, ![100000, 64]⟩
abbrev S800000 : Shape := ⟨1, ![800000]⟩
abbrev S256x64 : Shape := ⟨2, ![256, 64]⟩
abbrev S256 : Shape := ⟨1, ![256]⟩
abbrev S128x256 : Shape := ⟨2, ![128, 256]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S64x64 : Shape := ⟨2, ![64, 64]⟩
abbrev S_ : Shape := ⟨0, ![]⟩
abbrev S800000x1 : Shape := ⟨2, ![800000, 1]⟩
abbrev S800000x64 : Shape := ⟨2, ![800000, 64]⟩
abbrev S64x256 : Shape := ⟨2, ![64, 256]⟩
abbrev S800000x256 : Shape := ⟨2, ![800000, 256]⟩
abbrev S1x256 : Shape := ⟨2, ![1, 256]⟩
abbrev S256x128 : Shape := ⟨2, ![256, 128]⟩
abbrev S800000x128 : Shape := ⟨2, ![800000, 128]⟩
abbrev S1x128 : Shape := ⟨2, ![1, 128]⟩
abbrev S128x64 : Shape := ⟨2, ![128, 64]⟩
abbrev S64x1 : Shape := ⟨2, ![64, 1]⟩
abbrev S1x1 : Shape := ⟨2, ![1, 1]⟩
abbrev S100000 : Shape := ⟨1, ![100000]⟩
abbrev S100000x1 : Shape := ⟨2, ![100000, 1]⟩

abbrev nBuf : Space → Nat
  | .hbm => 134
  | .vmem => 0
  | .smem => 0
  | _ => 0

abbrev hbmTy0_0 (i : Nat) : BufTy := match i % 128 with
  | 0 => ⟨S100000x64, .f32⟩
  | 1 => ⟨S800000, .i32⟩
  | 2 => ⟨S800000, .i32⟩
  | 3 => ⟨S256x64, .f32⟩
  | 4 => ⟨S256, .f32⟩
  | 5 => ⟨S128x256, .f32⟩
  | 6 => ⟨S128, .f32⟩
  | 7 => ⟨S64x128, .f32⟩
  | 8 => ⟨S64, .f32⟩
  | 9 => ⟨S1x64, .f32⟩
  | 10 => ⟨S1, .f32⟩
  | 11 => ⟨S64x64, .f32⟩
  | 12 => ⟨S64x64, .f32⟩
  | 13 => ⟨S64, .f32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000x64, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x64, .f32⟩
  | 32 => ⟨S800000x64, .f32⟩
  | 33 => ⟨S64x256, .f32⟩
  | 34 => ⟨S800000x256, .f32⟩
  | 35 => ⟨S1x256, .f32⟩
  | 36 => ⟨S800000x256, .f32⟩
  | 37 => ⟨S800000x256, .f32⟩
  | 38 => ⟨S_, .f32⟩
  | 39 => ⟨S800000x256, .f32⟩
  | 40 => ⟨S800000x256, .i1⟩
  | 41 => ⟨S_, .f32⟩
  | 42 => ⟨S800000x256, .f32⟩
  | 43 => ⟨S800000x256, .f32⟩
  | 44 => ⟨S800000x256, .f32⟩
  | 45 => ⟨S256x128, .f32⟩
  | 46 => ⟨S800000x128, .f32⟩
  | 47 => ⟨S1x128, .f32⟩
  | 48 => ⟨S800000x128, .f32⟩
  | 49 => ⟨S800000x128, .f32⟩
  | 50 => ⟨S_, .f32⟩
  | 51 => ⟨S800000x128, .f32⟩
  | 52 => ⟨S800000x128, .i1⟩
  | 53 => ⟨S_, .f32⟩
  | 54 => ⟨S800000x128, .f32⟩
  | 55 => ⟨S800000x128, .f32⟩
  | 56 => ⟨S800000x128, .f32⟩
  | 57 => ⟨S128x64, .f32⟩
  | 58 => ⟨S800000x64, .f32⟩
  | 59 => ⟨S1x64, .f32⟩
  | 60 => ⟨S800000x64, .f32⟩
  | 61 => ⟨S800000x64, .f32⟩
  | 62 => ⟨S_, .f32⟩
  | 63 => ⟨S800000x64, .f32⟩
  | 64 => ⟨S800000x64, .i1⟩
  | 65 => ⟨S_, .f32⟩
  | 66 => ⟨S800000x64, .f32⟩
  | 67 => ⟨S800000x64, .f32⟩
  | 68 => ⟨S800000x64, .f32⟩
  | 69 => ⟨S64x1, .f32⟩
  | 70 => ⟨S800000x1, .f32⟩
  | 71 => ⟨S1x1, .f32⟩
  | 72 => ⟨S800000x1, .f32⟩
  | 73 => ⟨S800000x1, .f32⟩
  | 74 => ⟨S800000x1, .f32⟩
  | 75 => ⟨S800000x1, .f32⟩
  | 76 => ⟨S_, .f32⟩
  | 77 => ⟨S800000x1, .f32⟩
  | 78 => ⟨S800000x1, .f32⟩
  | 79 => ⟨S_, .f32⟩
  | 80 => ⟨S800000x1, .f32⟩
  | 81 => ⟨S800000x1, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S800000x64, .f32⟩
  | 91 => ⟨S800000x64, .f32⟩
  | 92 => ⟨S800000x64, .f32⟩
  | 93 => ⟨S_, .f32⟩
  | 94 => ⟨S100000x64, .f32⟩
  | 95 => ⟨S800000x1, .i32⟩
  | 96 => ⟨S100000x64, .f32⟩
  | 97 => ⟨S_, .f32⟩
  | 98 => ⟨S800000, .f32⟩
  | 99 => ⟨S_, .f32⟩
  | 100 => ⟨S100000, .f32⟩
  | 101 => ⟨S800000x1, .i32⟩
  | 102 => ⟨S100000, .f32⟩
  | 103 => ⟨S_, .f32⟩
  | 104 => ⟨S100000, .f32⟩
  | 105 => ⟨S100000, .f32⟩
  | 106 => ⟨S100000x1, .f32⟩
  | 107 => ⟨S100000x64, .f32⟩
  | 108 => ⟨S100000x64, .f32⟩
  | 109 => ⟨S64x64, .f32⟩
  | 110 => ⟨S100000x64, .f32⟩
  | 111 => ⟨S64x64, .f32⟩
  | 112 => ⟨S100000x64, .f32⟩
  | 113 => ⟨S100000x64, .f32⟩
  | 114 => ⟨S1x64, .f32⟩
  | 115 => ⟨S100000x64, .f32⟩
  | 116 => ⟨S100000x64, .f32⟩
  | 117 => ⟨S_, .f32⟩
  | 118 => ⟨S100000x64, .f32⟩
  | 119 => ⟨S100000x64, .i1⟩
  | 120 => ⟨S_, .f32⟩
  | 121 => ⟨S100000x64, .f32⟩
  | 122 => ⟨S100000x64, .f32⟩
  | 123 => ⟨S100000x64, .f32⟩
  | 124 => ⟨S100000x64, .f32⟩
  | 125 => ⟨S_, .f32⟩
  | 126 => ⟨S100000, .f32⟩
  | 127 => ⟨S100000x1, .f32⟩
  | _ => ⟨S100000x64, .f32⟩

abbrev hbmTy0_1 (i : Nat) : BufTy := match i % 128 with
  | 0 => ⟨S100000x1, .f32⟩
  | 1 => ⟨S_, .f32⟩
  | 2 => ⟨S100000x1, .f32⟩
  | 3 => ⟨S100000x1, .f32⟩
  | 4 => ⟨S100000x64, .f32⟩
  | 5 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_v8 : Ref sig .tc := ⟨.hbm, 25, rfl⟩
abbrev main_c_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst : Ref sig .tc := ⟨.hbm, 38, rfl⟩
abbrev main_v20 : Ref sig .tc := ⟨.hbm, 39, rfl⟩
abbrev main_v21 : Ref sig .tc := ⟨.hbm, 40, rfl⟩
abbrev main_cst_3 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_4 : Ref sig .tc := ⟨.hbm, 50, rfl⟩
abbrev main_v30 : Ref sig .tc := ⟨.hbm, 51, rfl⟩
abbrev main_v31 : Ref sig .tc := ⟨.hbm, 52, rfl⟩
abbrev main_cst_5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_6 : Ref sig .tc := ⟨.hbm, 62, rfl⟩
abbrev main_v40 : Ref sig .tc := ⟨.hbm, 63, rfl⟩
abbrev main_v41 : Ref sig .tc := ⟨.hbm, 64, rfl⟩
abbrev main_cst_7 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_8 : Ref sig .tc := ⟨.hbm, 76, rfl⟩
abbrev main_v52 : Ref sig .tc := ⟨.hbm, 77, rfl⟩
abbrev main_v53 : Ref sig .tc := ⟨.hbm, 78, rfl⟩
abbrev main_cst_9 : Ref sig .tc := ⟨.hbm, 79, rfl⟩
abbrev main_v54 : Ref sig .tc := ⟨.hbm, 80, rfl⟩
abbrev main_v55 : Ref sig .tc := ⟨.hbm, 81, rfl⟩
abbrev main_c_10 : Ref sig .tc := ⟨.hbm, 82, rfl⟩
abbrev main_v56 : Ref sig .tc := ⟨.hbm, 83, rfl⟩
abbrev main_v57 : Ref sig .tc := ⟨.hbm, 84, rfl⟩
abbrev main_c_11 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_12 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_13 : Ref sig .tc := ⟨.hbm, 97, rfl⟩
abbrev main_v68 : Ref sig .tc := ⟨.hbm, 98, rfl⟩
abbrev main_cst_14 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_15 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_16 : Ref sig .tc := ⟨.hbm, 117, rfl⟩
abbrev main_v85 : Ref sig .tc := ⟨.hbm, 118, rfl⟩
abbrev main_v86 : Ref sig .tc := ⟨.hbm, 119, rfl⟩
abbrev main_cst_17 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_call4_v0 : Ref sig .tc := ⟨.hbm, 124, rfl⟩
abbrev main_call4_cst : Ref sig .tc := ⟨.hbm, 125, rfl⟩
abbrev main_call4_v1 : Ref sig .tc := ⟨.hbm, 126, rfl⟩
abbrev main_call4_v2 : Ref sig .tc := ⟨.hbm, 127, rfl⟩
abbrev main_v90 : Ref sig .tc := ⟨.hbm, 128, rfl⟩
abbrev main_cst_18 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  transposes_S256x64_S64x256_1_0 : S256x64.Transposes [1, 0] S64x256
  bcast_S256_S1x256_1 : S256.BroadcastsInDim S1x256 (![1] : Fin 1 → Fin S1x256.rank)
  bcast_S1x256_S800000x256_0_1 : S1x256.BroadcastsInDim S800000x256 (![0, 1] : Fin 2 → Fin S800000x256.rank)
  bcast_S_S800000x256 : S_.BroadcastsInDim S800000x256 (![] : Fin 0 → Fin S800000x256.rank)
  transposes_S128x256_S256x128_1_0 : S128x256.Transposes [1, 0] S256x128
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  transposes_S64x128_S128x64_1_0 : S64x128.Transposes [1, 0] S128x64
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  transposes_S1x64_S64x1_1_0 : S1x64.Transposes [1, 0] S64x1
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S800000x1 : S_.BroadcastsInDim S800000x1 (![] : Fin 0 → Fin S800000x1.rank)
  bcast_S800000x1_S800000x64_0_1 : S800000x1.BroadcastsInDim S800000x64 (![0, 1] : Fin 2 → Fin S800000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S_S100000x1 : S_.BroadcastsInDim S100000x1 (![] : Fin 0 → Fin S100000x1.rank)
  gather_S100000x64_S800000x1_S800000x64_1_0_n_n_0_1_164_wf : GatherDims.WF S100000x64 S800000x1 S800000x64 [1] [0] [] [0] [] 1 ![1, 64]
  dot_S800000x64_S64x256_S800000x256_1_0_0_1_n_n_wf : DotDims.WF S800000x64 S64x256 S800000x256 [1] [0] [0] [1] [] []
  dot_S800000x256_S256x128_S800000x128_1_0_0_1_n_n_wf : DotDims.WF S800000x256 S256x128 S800000x128 [1] [0] [0] [1] [] []
  dot_S800000x128_S128x64_S800000x64_1_0_0_1_n_n_wf : DotDims.WF S800000x128 S128x64 S800000x64 [1] [0] [0] [1] [] []
  dot_S800000x64_S64x1_S800000x1_1_0_0_1_n_n_wf : DotDims.WF S800000x64 S64x1 S800000x1 [1] [0] [0] [1] [] []
  scatter_S100000x64_S800000x1_S800000x64_1_0_0_1_wf : ScatterDims.WF S100000x64 S800000x1 S800000x64 [1] [0] [0] 1
  scatter_S100000_S800000x1_S800000_n_0_0_1_wf : ScatterDims.WF S100000 S800000x1 S800000 [] [0] [0] 1
  dot_S100000x64_S64x64_S100000x64_1_0_0_1_n_n_wf : DotDims.WF S100000x64 S64x64 S100000x64 [1] [0] [0] [1] [] []

variable [Facts₀]

def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def dot_S800000x64_S64x256_S800000x256_1_0_0_1_n_n : DotDims S800000x64 S64x256 S800000x256 where
  lhsContracting := [1]
  rhsContracting := [0]
  lhsNonContracting := [0]
  rhsNonContracting := [1]
  lhsBatch := []
  rhsBatch := []
  wf := dot_S800000x64_S64x256_S800000x256_1_0_0_1_n_n_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def dot_S800000x64_S64x1_S800000x1_1_0_0_1_n_n : DotDims S800000x64 S64x1 S800000x1 where
  lhsContracting := [1]
  rhsContracting := [0]
  lhsNonContracting := [0]
  rhsNonContracting := [1]
  lhsBatch := []
  rhsBatch := []
  wf := dot_S800000x64_S64x1_S800000x1_1_0_0_1_n_n_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The idealized kernel's run with its two results named.  The program is four segments: a stretch of host operations
  (the two row gathers, the transposed weights, the reshaped biases), the per-edge region, a second stretch (the two
  scatter-adds and the node weights), the per-node region.  The segment run leaves every unscoped buffer at the last
  boundary's contents; read at the two result buffers this names what the program returns.
-/
import proofs.«180253_j17454747091496_2_alg».proof.Proof.Gen.KernelIdeal.Frame

set_option maxRecDepth 16384

noncomputable section

namespace Cert.KernelIdeal.Outputs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the node result and the edge-gate result end at the last
    boundary's contents of their buffers, and the fourteen arguments end as launched. -/
theorem run_named : θ_run defs (onTc (τ := τ) (main (F := F))) ⟨m, fun _ => 0, ρ⟩ (fun r => ∀ c : Dev nD,
      r.2.mem ((c.tc : Thread nD τ).loc main_v40) = W4 m ρ c (Proc.devRef .tc main_v40)
      ∧ r.2.mem ((c.tc : Thread nD τ).loc main_v26_1) = W4 m ρ c (Proc.devRef .tc main_v26_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v40 (by decide)),
       h c _ (mem_uc main_v26_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c)⟩)

end Cert.KernelIdeal.Outputs

end
-- ==== Proof.KernelProducts.lean ====
/-
  The five matrix products of the two kernel bodies, each read at one entry: into a zero accumulator the product's
  entry (p, c) is the plain sum over the shared coordinate k of left(p, k) · right(k, c).
-/
import proofs.«180253_j17454747091496_2_alg».proof.Proof.Gen.KernelIdeal
import Idealize.ShloMosaic.PureOps.Ideal.Laws
import Idealize.ShloMosaic.Lib.ValueIdx

set_option maxRecDepth 16384

noncomputable section

namespace Cert.KernelIdeal.Products

open Idealize.ShloMosaic Idealize.ShloMosaic.ValueIdx Cert.KernelIdeal

/-! ### The 3200×64 by 64×256 product -/

theorem edge1_lhs0 (i : S3200x256.Idx) (q : dot_S3200x64_S64x256_S3200x256_1_0_0_1_n_n.contr.Idx) : (dot_S3200x64_S64x256_S3200x256_1_0_0_1_n_n.lhsIdx i q 0).val = (i 0).val := by
  unfold DotDims.lhsIdx
  rw [dif_neg (show ¬(0 : Fin S3200x64.rank) ∈ dot_S3200x64_S64x256_S3200x256_1_0_0_1_n_n.lhsBatch by decide), dif_pos (show (0 : Fin S3200x64.rank) ∈ dot_S3200x64_S64x256_S3200x256_1_0_0_1_n_n.lhsNonContracting by decide)]
  rfl
theorem edge1_rhs1 (i : S3200x256.Idx) (q : dot_S3200x64_S64x256_S3200x256_1_0_0_1_n_n.contr.Idx) : (dot_S3200x64_S64x256_S3200x256_1_0_0_1_n_n.rhsIdx i q 1).val = (i 1).val := by
  unfold DotDims.rhsIdx
  rw [dif_neg (show ¬(1 : Fin S64x256.rank) ∈ dot_S3200x64_S64x256_S3200x256_1_0_0_1_n_n.rhsBatch by decide), dif_pos (show (1 : Fin S64x256.rank) ∈ dot_S3200x64_S64x256_S3200x256_1_0_0_1_n_n.rhsNonContracting by decide)]
  rfl

/-- Entry (p, c) of the product into a zero accumulator is the sum over the 64 shared coordinates of row p of the left
    factor times column c of the right one. -/
theorem edge1_matmul_apply {φ₁ φ₂ : FTy} (l : FVec Ideal S3200x64 φ₁) (r : FVec Ideal S64x256 φ₂) (p : Fin 3200) (c : Fin 256) :
    matmul dot_S3200x64_S64x256_S3200x256_1_0_0_1_n_n none l r (constant S3200x256 .f32 0x00000000#32) (ix2 p c) = ∑ k : Fin 64, l (ix2 p k) * r (ix2 k c) := by
  simp only [matmul]
  rw [Ideal.matmul_constant_zero_apply, ← Equiv.sum_comp (contrEquiv1 dot_S3200x64_S64x256_S3200x256_1_0_0_1_n_n 64 rfl rfl).symm]
  refine Finset.sum_congr rfl fun k _ => ?_
  have hk := contrEquiv1_symm_val dot_S3200x64_S64x256_S3200x256_1_0_0_1_n_n 64 rfl rfl k
  have el : dot_S3200x64_S64x256_S3200x256_1_0_0_1_n_n.lhsIdx (ix2 p c) ((contrEquiv1 dot_S3200x64_S64x256_S3200x256_1_0_0_1_n_n 64 rfl rfl).symm k) = ix2 p k := funext fun a => Fin.ext (by
    match a with
    | ⟨0, _⟩ => exact edge1_lhs0 _ _
    | ⟨1, _⟩ => exact (dot_S3200x64_S64x256_S3200x256_1_0_0_1_n_n.lhsIdx_val_of_single rfl _ _).trans hk)
  have er : dot_S3200x64_S64x256_S3200x256_1_0_0_1_n_n.rhsIdx (ix2 p c) ((contrEquiv1 dot_S3200x64_S64x256_S3200x256_1_0_0_1_n_n 64 rfl rfl).symm k) = ix2 k c := funext fun a => Fin.ext (by
    match a with
    | ⟨0, _⟩ => exact (dot_S3200x64_S64x256_S3200x256_1_0_0_1_n_n.rhsIdx_val_of_single rfl _ _).trans hk
    | ⟨1, _⟩ => exact edge1_rhs1 _ _)
  rw [el, er]

/-! ### The 3200×256 by 256×128 product -/

theorem edge2_lhs0 (i : S3200x128.Idx) (q : dot_S3200x256_S256x128_S3200x128_1_0_0_1_n_n.contr.Idx) : (dot_S3200x256_S256x128_S3200x128_1_0_0_1_n_n.lhsIdx i q 0).val = (i 0).val := by
  unfold DotDims.lhsIdx
  rw [dif_neg (show ¬(0 : Fin S3200x256.rank) ∈ dot_S3200x256_S256x128_S3200x128_1_0_0_1_n_n.lhsBatch by decide), dif_pos (show (0 : Fin S3200x256.rank) ∈ dot_S3200x256_S256x128_S3200x128_1_0_0_1_n_n.lhsNonContracting by decide)]
  rfl
theorem edge2_rhs1 (i : S3200x128.Idx) (q : dot_S3200x256_S256x128_S3200x128_1_0_0_1_n_n.contr.Idx) : (dot_S3200x256_S256x128_S3200x128_1_0_0_1_n_n.rhsIdx i q 1).val = (i 1).val := by
  unfold DotDims.rhsIdx
  rw [dif_neg (show ¬(1 : Fin S256x128.rank) ∈ dot_S3200x256_S256x128_S3200x128_1_0_0_1_n_n.rhsBatch by decide), dif_pos (show (1 : Fin S256x128.rank) ∈ dot_S3200x256_S256x128_S3200x128_1_0_0_1_n_n.rhsNonContracting by decide)]
  rfl

/-- Entry (p, c) of the product into a zero accumulator is the sum over the 256 shared coordinates of row p of the left
    factor times column c of the right one. -/
theorem edge2_matmul_apply {φ₁ φ₂ : FTy} (l : FVec Ideal S3200x256 φ₁) (r : FVec Ideal S256x128 φ₂) (p : Fin 3200) (c : Fin 128) :
    matmul dot_S3200x256_S256x128_S3200x128_1_0_0_1_n_n none l r (constant S3200x128 .f32 0x00000000#32) (ix2 p c) = ∑ k : Fin 256, l (ix2 p k) * r (ix2 k c) := by
  simp only [matmul]
  rw [Ideal.matmul_constant_zero_apply, ← Equiv.sum_comp (contrEquiv1 dot_S3200x256_S256x128_S3200x128_1_0_0_1_n_n 256 rfl rfl).symm]
  refine Finset.sum_congr rfl fun k _ => ?_
  have hk := contrEquiv1_symm_val dot_S3200x256_S256x128_S3200x128_1_0_0_1_n_n 256 rfl rfl k
  have el : dot_S3200x256_S256x128_S3200x128_1_0_0_1_n_n.lhsIdx (ix2 p c) ((contrEquiv1 dot_S3200x256_S256x128_S3200x128_1_0_0_1_n_n 256 rfl rfl).symm k) = ix2 p k := funext fun a => Fin.ext (by
    match a with
    | ⟨0, _⟩ => exact edge2_lhs0 _ _
    | ⟨1, _⟩ => exact (dot_S3200x256_S256x128_S3200x128_1_0_0_1_n_n.lhsIdx_val_of_single rfl _ _).trans hk)
  have er : dot_S3200x256_S256x128_S3200x128_1_0_0_1_n_n.rhsIdx (ix2 p c) ((contrEquiv1 dot_S3200x256_S256x128_S3200x128_1_0_0_1_n_n 256 rfl rfl).symm k) = ix2 k c := funext fun a => Fin.ext (by
    match a with
    | ⟨0, _⟩ => exact (dot_S3200x256_S256x128_S3200x128_1_0_0_1_n_n.rhsIdx_val_of_single rfl _ _).trans hk
    | ⟨1, _⟩ => exact edge2_rhs1 _ _)
  rw [el, er]

/-! ### The 3200×128 by 128×64 product -/

theorem edge3_lhs0 (i : S3200x64.Idx) (q : dot_S3200x128_S128x64_S3200x64_1_0_0_1_n_n.contr.Idx) : (dot_S3200x128_S128x64_S3200x64_1_0_0_1_n_n.lhsIdx i q 0).val = (i 0).val := by
  unfold DotDims.lhsIdx
  rw [dif_neg (show ¬(0 : Fin S3200x128.rank) ∈ dot_S3200x128_S128x64_S3200x64_1_0_0_1_n_n.lhsBatch by decide), dif_pos (show (0 : Fin S3200x128.rank) ∈ dot_S3200x128_S128x64_S3200x64_1_0_0_1_n_n.lhsNonContracting by decide)]
  rfl
theorem edge3_rhs1 (i : S3200x64.Idx) (q : dot_S3200x128_S128x64_S3200x64_1_0_0_1_n_n.contr.Idx) : (dot_S3200x128_S128x64_S3200x64_1_0_0_1_n_n.rhsIdx i q 1).val = (i 1).val := by
  unfold DotDims.rhsIdx
  rw [dif_neg (show ¬(1 : Fin S128x64.rank) ∈ dot_S3200x128_S128x64_S3200x64_1_0_0_1_n_n.rhsBatch by decide), dif_pos (show (1 : Fin S128x64.rank) ∈ dot_S3200x128_S128x64_S3200x64_1_0_0_1_n_n.rhsNonContracting by decide)]
  rfl

/-- Entry (p, c) of the product into a zero accumulator is the sum over the 128 shared coordinates of row p of the left
    factor times column c of the right one. -/
theorem edge3_matmul_apply {φ₁ φ₂ : FTy} (l : FVec Ideal S3200x128 φ₁) (r : FVec Ideal S128x64 φ₂) (p : Fin 3200) (c : Fin 64) :
    matmul dot_S3200x128_S128x64_S3200x64_1_0_0_1_n_n none l r (constant S3200x64 .f32 0x00000000#32) (ix2 p c) = ∑ k : Fin 128, l (ix2 p k) * r (ix2 k c) := by
  simp only [matmul]
  rw [Ideal.matmul_constant_zero_apply, ← Equiv.sum_comp (contrEquiv1 dot_S3200x128_S128x64_S3200x64_1_0_0_1_n_n 128 rfl rfl).symm]
  refine Finset.sum_congr rfl fun k _ => ?_
  have hk := contrEquiv1_symm_val dot_S3200x128_S128x64_S3200x64_1_0_0_1_n_n 128 rfl rfl k
  have el : dot_S3200x128_S128x64_S3200x64_1_0_0_1_n_n.lhsIdx (ix2 p c) ((contrEquiv1 dot_S3200x128_S128x64_S3200x64_1_0_0_1_n_n 128 rfl rfl).symm k) = ix2 p k := funext fun a => Fin.ext (by
    match a with
    | ⟨0, _⟩ => exact edge3_lhs0 _ _
    | ⟨1, _⟩ => exact (dot_S3200x128_S128x64_S3200x64_1_0_0_1_n_n.lhsIdx_val_of_single rfl _ _).trans hk)
  have er : dot_S3200x128_S128x64_S3200x64_1_0_0_1_n_n.rhsIdx (ix2 p c) ((contrEquiv1 dot_S3200x128_S128x64_S3200x64_1_0_0_1_n_n 128 rfl rfl).symm k) = ix2 k c := funext fun a => Fin.ext (by
    match a with
    | ⟨0, _⟩ => exact (dot_S3200x128_S128x64_S3200x64_1_0_0_1_n_n.rhsIdx_val_of_single rfl _ _).trans hk
    | ⟨1, _⟩ => exact edge3_rhs1 _ _)
  rw [el, er]

/-! ### The 3200×64 by 64×1 product -/

theorem edge4_lhs0 (i : S3200x1.Idx) (q : dot_S3200x64_S64x1_S3200x1_1_0_0_1_n_n.contr.Idx) : (dot_S3200x64_S64x1_S3200x1_1_0_0_1_n_n.lhsIdx i q 0).val = (i 0).val := by
  unfold DotDims.lhsIdx
  rw [dif_neg (show ¬(0 : Fin S3200x64.rank) ∈ dot_S3200x64_S64x1_S3200x1_1_0_0_1_n_n.lhsBatch by decide), dif_pos (show (0 : Fin S3200x64.rank) ∈ dot_S3200x64_S64x1_S3200x1_1_0_0_1_n_n.lhsNonContracting by decide)]
  rfl
theorem edge4_rhs1 (i : S3200x1.Idx) (q : dot_S3200x64_S64x1_S3200x1_1_0_0_1_n_n.contr.Idx) : (dot_S3200x64_S64x1_S3200x1_1_0_0_1_n_n.rhsIdx i q 1).val = (i 1).val := by
  unfold DotDims.rhsIdx
  rw [dif_neg (show ¬(1 : Fin S64x1.rank) ∈ dot_S3200x64_S64x1_S3200x1_1_0_0_1_n_n.rhsBatch by decide), dif_pos (show (1 : Fin S64x1.rank) ∈ dot_S3200x64_S64x1_S3200x1_1_0_0_1_n_n.rhsNonContracting by decide)]
  rfl

/-- Entry (p, c) of the product into a zero accumulator is the sum over the 64 shared coordinates of row p of the left
    factor times column c of the right one. -/
theorem edge4_matmul_apply {φ₁ φ₂ : FTy} (l : FVec Ideal S3200x64 φ₁) (r : FVec Ideal S64x1 φ₂) (p : Fin 3200) (c : Fin 1) :
    matmul dot_S3200x64_S64x1_S3200x1_1_0_0_1_n_n none l r (constant S3200x1 .f32 0x00000000#32) (ix2 p c) = ∑ k : Fin 64, l (ix2 p k) * r (ix2 k c) := by
  simp only [matmul]
  rw [Ideal.matmul_constant_zero_apply, ← Equiv.sum_comp (contrEquiv1 dot_S3200x64_S64x1_S3200x1_1_0_0_1_n_n 64 rfl rfl).symm]
  refine Finset.sum_congr rfl fun k _ => ?_
  have hk := contrEquiv1_symm_val dot_S3200x64_S64x1_S3200x1_1_0_0_1_n_n 64 rfl rfl k
  have el : dot_S3200x64_S64x1_S3200x1_1_0_0_1_n_n.lhsIdx (ix2 p c) ((contrEquiv1 dot_S3200x64_S64x1_S3200x1_1_0_0_1_n_n 64 rfl rfl).symm k) = ix2 p k := funext fun a => Fin.ext (by
    match a with
    | ⟨0, _⟩ => exact edge4_lhs0 _ _
    | ⟨1, _⟩ => exact (dot_S3200x64_S64x1_S3200x1_1_0_0_1_n_n.lhsIdx_val_of_single rfl _ _).trans hk)
  have er : dot_S3200x64_S64x1_S3200x1_1_0_0_1_n_n.rhsIdx (ix2 p c) ((contrEquiv1 dot_S3200x64_S64x1_S3200x1_1_0_0_1_n_n 64 rfl rfl).symm k) = ix2 k c := funext fun a => Fin.ext (by
    match a with
    | ⟨0, _⟩ => exact (dot_S3200x64_S64x1_S3200x1_1_0_0_1_n_n.rhsIdx_val_of_single rfl _ _).trans hk
    | ⟨1, _⟩ => exact edge4_rhs1 _ _)
  rw [el, er]

/-! ### The 4000×64 by 64×64 product -/

theorem node_lhs0 (i : S4000x64.Idx) (q : dot_S4000x64_S64x64_S4000x64_1_0_0_1_n_n.contr.Idx) : (dot_S4000x64_S64x64_S4000x64_1_0_0_1_n_n.lhsIdx i q 0).val = (i 0).val := by
  unfold DotDims.lhsIdx
  rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
  rfl
theorem node_rhs1 (i : S4000x64.Idx) (q : dot_S4000x64_S64x64_S4000x64_1_0_0_1_n_n.contr.Idx) : (dot_S4000x64_S64x64_S4000x64_1_0_0_1_n_n.rhsIdx i q 1).val = (i 1).val := by
  unfold DotDims.rhsIdx
  rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
  rfl

/-- Entry (p, c) of the product into a zero accumulator is the sum over the 64 shared coordinates of row p of the left
    factor times column c of the right one. -/
theorem node_matmul_apply {φ₁ φ₂ : FTy} (l : FVec Ideal S4000x64 φ₁) (r : FVec Ideal S64x64 φ₂) (p : Fin 4000) (c : Fin 64) :
    matmul dot_S4000x64_S64x64_S4000x64_1_0_0_1_n_n none l r (constant S4000x64 .f32 0x00000000#32) (ix2 p c) = ∑ k : Fin 64, l (ix2 p k) * r (ix2 k c) := by
  simp only [matmul]
  rw [Ideal.matmul_constant_zero_apply, ← Equiv.sum_comp (contrEquiv1 dot_S4000x64_S64x64_S4000x64_1_0_0_1_n_n 64 rfl rfl).symm]
  refine Finset.sum_congr rfl fun k _ => ?_
  have hk := contrEquiv1_symm_val dot_S4000x64_S64x64_S4000x64_1_0_0_1_n_n 64 rfl rfl k
  have el : dot_S4000x64_S64x64_S4000x64_1_0_0_1_n_n.lhsIdx (ix2 p c) ((contrEquiv1 dot_S4000x64_S64x64_S4000x64_1_0_0_1_n_n 64 rfl rfl).symm k) = ix2 p k := funext fun a => Fin.ext (by
    match a with
    | ⟨0, _⟩ => exact node_lhs0 _ _
    | ⟨1, _⟩ => exact (dot_S4000x64_S64x64_S4000x64_1_0_0_1_n_n.lhsIdx_val_of_single rfl _ _).trans hk)
  have er : dot_S4000x64_S64x64_S4000x64_1_0_0_1_n_n.rhsIdx (ix2 p c) ((contrEquiv1 dot_S4000x64_S64x64_S4000x64_1_0_0_1_n_n 64 rfl rfl).symm k) = ix2 k c := funext fun a => Fin.ext (by
    match a with
    | ⟨0, _⟩ => exact (dot_S4000x64_S64x64_S4000x64_1_0_0_1_n_n.rhsIdx_val_of_single rfl _ _).trans hk
    | ⟨1, _⟩ => exact node_rhs1 _ _)
  rw [el, er]

end Cert.KernelIdeal.Products

end
-- ==== Proof.Layouts.lean ====
/-
  Three layout operations read at an index written by coordinates: a column broadcast over a row's coordinates,
  a vector stood up as a one-column matrix, and a one-row matrix laid over many rows down to a single column.
-/
import Idealize.ShloMosaic.Lib.Pipeline.Value
import Idealize.ShloMosaic.Lib.ValueIdx
import Idealize.ShloMosaic.Lib.ValueLayout

namespace Cert.GraphLayer.Layout

open Idealize.ShloMosaic Idealize.ShloMosaic.ValueIdx

variable {α : Type}

/-- An [a, 1] column broadcast to [a, b] reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An [a] vector cast to an [a, 1] column reads, at (p, u), the vector's entry p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Cert.GraphLayer.Layout
-- ==== Proof.Spec.lean ====
/-
  The mathematics of the graph layer, on the extended reals, row by row.

  An edge e with endpoints u = src e and v = dst e gets a gate in (0, 1): the difference x[u] - x[v] of the two
  64-wide node rows goes through three leaky-rectified affine maps (64 → 256 → 128 → 64) and a fourth affine map to
  one number, whose logistic is the gate.  The edge's message is gate · x[u].  A node's row of the result takes the sum
  s of the messages arriving at it and their count deg, forms x · Wself + (s / max(deg, 1)) · Wneigh + bias, rectifies
  it, and divides the row by max(‖row‖₂, ε).

  Every affine map is a plain finite sum of products plus a bias: no distributive law, no cancellation, so nothing
  here asks the inputs to be finite.  The weights enter already transposed (input coordinate first).
-/
import Idealize.ShloMosaic.PureOps.Ideal
import Idealize.ShloMosaic.PureOps.Ideal.Laws
import Idealize.ShloMosaic.Lib.ValueIdx

noncomputable section

namespace Cert.GraphLayer

open Idealize.ShloMosaic Idealize.ShloMosaic.ValueIdx

/-- The four float constants the two programs share, as the extended reals their binary words denote. -/
abbrev zeroC : EReal := Ideal.ofBits .f32 0x00000000#32
abbrev slopeC : EReal := Ideal.ofBits .f32 0x3C23D70A#32
abbrev epsC : EReal := Ideal.ofBits .f32 0x2B8CBCCC#32
abbrev oneC : EReal := Ideal.ofBits .f32 0x3F800000#32

/-- The leaky rectifier: a where a > 0, slope · a elsewhere. -/
def leaky (a : EReal) : EReal := Scalar.select (Ideal.cmp .ogt a zeroC) a (slopeC * a)

/-- One output coordinate of an affine map: the inner product with a weight column, plus the bias. -/
def affine {K : Nat} (h w : Fin K → EReal) (b : EReal) : EReal := (∑ k : Fin K, h k * w k) + b

/-- A rectified affine layer from K to C coordinates; w k c is the weight from input k to output c. -/
def dense {K C : Nat} (h : Fin K → EReal) (w : Fin K → Fin C → EReal) (b : Fin C → EReal) : Fin C → EReal :=
  fun c => leaky (affine h (fun k => w k c) (b c))

/-- An edge's gate from the two endpoint rows. -/
def gate (xs xd : Fin 64 → EReal) (w1 : Fin 64 → Fin 256 → EReal) (b1 : Fin 256 → EReal)
    (w2 : Fin 256 → Fin 128 → EReal) (b2 : Fin 128 → EReal) (w3 : Fin 128 → Fin 64 → EReal) (b3 : Fin 64 → EReal)
    (w4 : Fin 64 → EReal) (b4 : EReal) : EReal :=
  Ideal.logistic (affine (dense (dense (dense (fun k => xs k - xd k) w1 b1) w2 b2) w3 b3) w4 b4)

/-- A node's rectified pre-normalisation row: x · Wself + (s / max(deg, 1)) · Wneigh + bias, rectified. -/
def nodePre (x s : Fin 64 → EReal) (deg : EReal) (ws wn : Fin 64 → Fin 64 → EReal) (bias : Fin 64 → EReal) : Fin 64 → EReal :=
  fun c => leaky (((∑ k : Fin 64, x k * ws k c) + (∑ k : Fin 64, Ideal.div (s k) (max deg oneC) * wn k c)) + bias c)

/-- The node's result row: the rectified row over max(its Euclidean norm, ε). -/
def nodeRow (x s : Fin 64 → EReal) (deg : EReal) (ws wn : Fin 64 → Fin 64 → EReal) (bias : Fin 64 → EReal) : Fin 64 → EReal :=
  fun c => Ideal.div (nodePre x s deg ws wn bias c)
    (max (Ideal.sqrt (∑ c' : Fin 64, nodePre x s deg ws wn bias c' * nodePre x s deg ws wn bias c')) epsC)

/-! ## The same, over whole arrays -/

/-- The gate of every edge: XS and XD are the gathered endpoint rows, the weights transposed, the biases vectors. -/
def gateArr (XS XD : (⟨2, ![800000, 64]⟩ : Shape).Idx → EReal)
    (W1 : (⟨2, ![64, 256]⟩ : Shape).Idx → EReal) (B1 : (⟨1, ![256]⟩ : Shape).Idx → EReal)
    (W2 : (⟨2, ![256, 128]⟩ : Shape).Idx → EReal) (B2 : (⟨1, ![128]⟩ : Shape).Idx → EReal)
    (W3 : (⟨2, ![128, 64]⟩ : Shape).Idx → EReal) (B3 : (⟨1, ![64]⟩ : Shape).Idx → EReal)
    (W4 : (⟨2, ![64, 1]⟩ : Shape).Idx → EReal) (B4 : (⟨1, ![1]⟩ : Shape).Idx → EReal) :
    (⟨2, ![800000, 1]⟩ : Shape).Idx → EReal := fun i =>
  gate (fun k => XS (ix2 (i 0) k)) (fun k => XD (ix2 (i 0) k)) (fun k c => W1 (ix2 k c)) (fun c => B1 (ix1 c))
    (fun k c => W2 (ix2 k c)) (fun c => B2 (ix1 c)) (fun k c => W3 (ix2 k c)) (fun c => B3 (ix1 c))
    (fun k => W4 (ix2 k 0)) (B4 (ix1 0))

/-- Every edge's message: its gate times its source row. -/
def msgArr (E : (⟨2, ![800000, 1]⟩ : Shape).Idx → EReal) (XS : (⟨2, ![800000, 64]⟩ : Shape).Idx → EReal) :
    (⟨2, ![800000, 64]⟩ : Shape).Idx → EReal := fun i => E (ix2 (i 0) 0) * XS i

/-- Every node's result row from its own row, the summed messages S and the in-degree DEG (one column). -/
def nodeArr (X S : (⟨2, ![100000, 64]⟩ : Shape).Idx → EReal) (DEG : (⟨2, ![100000, 1]⟩ : Shape).Idx → EReal)
    (WS WN : (⟨2, ![64, 64]⟩ : Shape).Idx → EReal) (BIAS : (⟨1, ![64]⟩ : Shape).Idx → EReal) :
    (⟨2, ![100000, 64]⟩ : Shape).Idx → EReal := fun i =>
  nodeRow (fun k => X (ix2 (i 0) k)) (fun k => S (ix2 (i 0) k)) (DEG (ix2 (i 0) 0))
    (fun k c => WS (ix2 k c)) (fun k c => WN (ix2 k c)) (fun c => BIAS (ix1 c)) (i 1)

end Cert.GraphLayer

end
-- ==== Proof.EdgeBody.lean ====
/-
  The per-edge kernel body, read at one entry.  Its block holds 3200 edges; row p of the block depends only on row p
  of the two gathered blocks and on the (whole) weights and biases.  Reading the body's operations at (p, c) — each
  matrix product as a finite sum over the shared coordinate, each broadcast at the row or column it copies, every
  change of float format the identity on the extended reals — gives exactly the three rectified affine layers, the
  fourth affine map and the logistic of the specification: the gate of edge p, and the gate times the source row.
-/
import proofs.«180253_j17454747091496_2_alg».proof.Proof.Gen.KernelIdeal.Skeleton
import proofs.«180253_j17454747091496_2_alg».proof.Proof.KernelProducts
import proofs.«180253_j17454747091496_2_alg».proof.Proof.Layouts
import proofs.«180253_j17454747091496_2_alg».proof.Proof.Spec
import Idealize.ShloMosaic.Lib.ValueLayout

set_option maxRecDepth 16384

noncomputable section

namespace Cert.KernelIdeal.EdgeBody

open Idealize.ShloMosaic Idealize.ShloMosaic.ValueIdx Cert.KernelIdeal Cert.KernelIdeal.Gen Cert.KernelIdeal.Products
open Cert.GraphLayer Cert.GraphLayer.Layout

/-- The logistic of a vector is the logistic of each entry. -/
theorem logistic_apply {s : Shape} {φ : FTy} (v : FVec Ideal s φ) (i : s.Idx) : logistic v i = Ideal.logistic (v i) := rfl

/-- The third hidden layer before its bias: entry (p, c) is the sum over the 128 coordinates of the second rectified
    layer of edge p times the third weight matrix's column c. -/
theorem third_hidden (x0 x1 : Vec Ideal S3200x64 .f32) (x2 : Vec Ideal S64x256 .bf16) (x3 : Vec Ideal S1x256 .f32)
    (x4 : Vec Ideal S256x128 .bf16) (x5 : Vec Ideal S1x128 .f32) (x6 : Vec Ideal S128x64 .bf16) (p : Fin 3200) (c : Fin 64) :
    k0_pay4 x0 x1 x2 x3 x4 x5 x6 (ix2 p c)
      = ∑ k : Fin 128, dense (dense (fun k => x0 (ix2 p k) - x1 (ix2 p k)) (fun k c => x2 (ix2 k c)) (fun c => x3 (ix2 (0 : Fin 1) c)))
          (fun k c => x4 (ix2 k c)) (fun c => x5 (ix2 (0 : Fin 1) c)) k * x6 (ix2 k c) := by
  unfold k0_pay4 k0_pay3
  simp only [edge3_matmul_apply, edge2_matmul_apply, edge1_matmul_apply, truncf_apply, select_apply, cmpf_apply, addf_apply, mulf_apply,
    subf_apply, broadcast_apply, shapeCast_self, broadcastTo_1b_ab_apply, dense, affine, leaky]
  rfl

/-- The gate the body stores for edge p of the block. -/
theorem gate_payload (x0 x1 : Vec Ideal S3200x64 .f32) (x2 : Vec Ideal S64x256 .bf16) (x3 : Vec Ideal S1x256 .f32)
    (x4 : Vec Ideal S256x128 .bf16) (x5 : Vec Ideal S1x128 .f32) (x6 : Vec Ideal S128x64 .bf16) (x7 : Vec Ideal S1x64 .f32)
    (x8 : Vec Ideal S64x1 .bf16) (x9 : Vec Ideal S1x1 .f32) (p : Fin 3200) (u : Fin 1) :
    k0_pay1 (k0_pay4 x0 x1 x2 x3 x4 x5 x6) x7 x8 x9 (ix2 p u)
      = gate (fun k => x0 (ix2 p k)) (fun k => x1 (ix2 p k)) (fun k c => x2 (ix2 k c)) (fun c => x3 (ix2 (0 : Fin 1) c))
          (fun k c => x4 (ix2 k c)) (fun c => x5 (ix2 (0 : Fin 1) c)) (fun k c => x6 (ix2 k c)) (fun c => x7 (ix2 (0 : Fin 1) c))
          (fun k => x8 (ix2 k (0 : Fin 1))) (x9 (ix2 (0 : Fin 1) (0 : Fin 1))) := by
  obtain rfl : u = 0 := Subsingleton.elim _ _
  unfold k0_pay1
  simp only [logistic_apply, edge4_matmul_apply, truncf_apply, select_apply, cmpf_apply, addf_apply, mulf_apply,
    broadcast_apply, shapeCast_self, broadcastTo_1b_ab_apply, third_hidden, gate, dense, affine, leaky]
  rfl

/-- The message entry the body stores: the edge's gate times its source row's coordinate c. -/
theorem message_payload (x0 x1 : Vec Ideal S3200x64 .f32) (x2 : Vec Ideal S64x256 .bf16) (x3 : Vec Ideal S1x256 .f32)
    (x4 : Vec Ideal S256x128 .bf16) (x5 : Vec Ideal S1x128 .f32) (x6 : Vec Ideal S128x64 .bf16) (x7 : Vec Ideal S1x64 .f32)
    (x8 : Vec Ideal S64x1 .bf16) (x9 : Vec Ideal S1x1 .f32) (p : Fin 3200) (c : Fin 64) :
    k0_pay2 (k0_pay3 x0) (k0_pay4 x0 x1 x2 x3 x4 x5 x6) x7 x8 x9 (ix2 p c)
      = gate (fun k => x0 (ix2 p k)) (fun k => x1 (ix2 p k)) (fun k c => x2 (ix2 k c)) (fun c => x3 (ix2 (0 : Fin 1) c))
          (fun k c => x4 (ix2 k c)) (fun c => x5 (ix2 (0 : Fin 1) c)) (fun k c => x6 (ix2 k c)) (fun c => x7 (ix2 (0 : Fin 1) c))
          (fun k => x8 (ix2 k (0 : Fin 1))) (x9 (ix2 (0 : Fin 1) (0 : Fin 1))) * x0 (ix2 p c) := by
  unfold k0_pay2 k0_pay3
  simp only [mulf_apply, broadcastTo_a1_ab_apply, shapeCast_self, gate_payload]

end Cert.KernelIdeal.EdgeBody

end
-- ==== Proof.EdgeRegion.lean ====
/-
  The per-edge region as a whole.  Point t of its 250 points works on edges 3200·t … 3200·t + 3199: the two gathered
  arrays and both results move in blocks of 3200 rows, the weights and biases are whole at every point.  So what point
  t writes back is block t of ONE function of the arrays the region finds — the specification's gate of every edge,
  and gate times source row — and, the blocks covering all 800000 edges, the two result arrays end holding exactly
  those functions.
-/
import proofs.«180253_j17454747091496_2_alg».proof.Proof.Gen.KernelIdeal.Frame
import proofs.«180253_j17454747091496_2_alg».proof.Proof.EdgeBody
import proofs.«180253_j17454747091496_2_alg».proof.Proof.Spec
import Idealize.ShloMosaic.Lib.Pipeline.Value

set_option maxRecDepth 16384

noncomputable section

namespace Cert.KernelIdeal.EdgeRegion

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.EdgeBody Cert.GraphLayer

-- the TensorCore's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the four row-blocked windows sit at block row t, column block 0; the eight
    weight and bias windows at block (0, 0). -/
theorem index_facts : ∀ t : Fin cfg0.N, win0_0.index t (0 : Fin 2) = win0_11.index t (0 : Fin 2)
    ∧ win0_0.index t (1 : Fin 2) = 0
    ∧ win0_1.index t (0 : Fin 2) = win0_11.index t (0 : Fin 2)
    ∧ win0_1.index t (1 : Fin 2) = 0
    ∧ win0_10.index t (0 : Fin 2) = win0_11.index t (0 : Fin 2)
    ∧ win0_10.index t (1 : Fin 2) = 0
    ∧ win0_11.index t (0 : Fin 2) = t.val
    ∧ win0_11.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0 :=
  (by decide +kernel : ∀ t : Fin grid0.N, _)

theorem point_lt (t : Fin cfg0.N) : t.val < 250 := lt_of_lt_of_eq t.isLt N_0

/-- Window 0's block at point t is rows 3200·t … 3200·t + 3199 of its [800000, 64] array. -/
theorem rows_block0 (c : Dev nD) (t : Fin cfg0.N) (p : Fin 3200) (k : Fin 64) (r : Fin 800000)
    (hr : r.val = win0_11.index t (0 : Fin 2) * 3200 + p.val) :
    iblk0 V c 0 t (ix2 p k) = (V c main_v6 : S800000x64.Idx → EReal) (ix2 r k) := by
  have e0 : win0_0.index t (0 : Fin 2) = win0_11.index t (0 : Fin 2) := (index_facts t).1
  have e1 : win0_0.index t (1 : Fin 2) = 0 := (index_facts t).2.1
  unfold iblk0
  rw [View.read_apply]
  show V c main_v6 _ = V c main_v6 _
  refine congrArg _ (funext fun a => Fin.ext ?_)
  match a with
  | ⟨0, _⟩ => show win0_0.index t (0 : Fin 2) * 3200 + 1 * p.val = r.val; omega
  | ⟨1, _⟩ => show win0_0.index t (1 : Fin 2) * 64 + 1 * k.val = k.val; omega

/-- Window 1's block at point t is rows 3200·t … 3200·t + 3199 of its [800000, 64] array. -/
theorem rows_block1 (c : Dev nD) (t : Fin cfg0.N) (p : Fin 3200) (k : Fin 64) (r : Fin 800000)
    (hr : r.val = win0_11.index t (0 : Fin 2) * 3200 + p.val) :
    iblk0 V c 1 t (ix2 p k) = (V c main_v13 : S800000x64.Idx → EReal) (ix2 r k) := by
  have e0 : win0_1.index t (0 : Fin 2) = win0_11.index t (0 : Fin 2) := (index_facts t).2.2.1
  have e1 : win0_1.index t (1 : Fin 2) = 0 := (index_facts t).2.2.2.1
  unfold iblk0
  rw [View.read_apply]
  show V c main_v13 _ = V c main_v13 _
  refine congrArg _ (funext fun a => Fin.ext ?_)
  match a with
  | ⟨0, _⟩ => show win0_1.index t (0 : Fin 2) * 3200 + 1 * p.val = r.val; omega
  | ⟨1, _⟩ => show win0_1.index t (1 : Fin 2) * 64 + 1 * k.val = k.val; omega

/-- Window 2's block is the whole [64, 256] array at every point. -/
theorem whole_block2 (c : Dev nD) (t : Fin cfg0.N) (y : S64x256.Idx) :
    iblk0 V c 2 t y = (V c main_v15 : S64x256.Idx → EReal) y := by
  have e0 : win0_2.index t (0 : Fin 2) = 0 := (index_facts t).2.2.2.2.2.2.2.2.1
  have e1 : win0_2.index t (1 : Fin 2) = 0 := (index_facts t).2.2.2.2.2.2.2.2.2.1
  unfold iblk0
  rw [View.read_apply]
  show V c main_v15 _ = V c main_v15 _
  refine congrArg _ (funext fun a => Fin.ext ?_)
  match a with
  | ⟨0, _⟩ => show win0_2.index t (0 : Fin 2) * 64 + 1 * (y 0).val = (y 0).val; omega
  | ⟨1, _⟩ => show win0_2.index t (1 : Fin 2) * 256 + 1 * (y 1).val = (y 1).val; omega

/-- Window 3's block is the whole [1, 256] array at every point. -/
theorem whole_block3 (c : Dev nD) (t : Fin cfg0.N) (y : S1x256.Idx) :
    iblk0 V c 3 t y = (V c main_v22 : S1x256.Idx → EReal) y := by
  have e0 : win0_3.index t (0 : Fin 2) = 0 := (index_facts t).2.2.2.2.2.2.2.2.2.2.1
  have e1 : win0_3.index t (1 : Fin 2) = 0 := (index_facts t).2.2.2.2.2.2.2.2.2.2.2.1
  unfold iblk0
  rw [View.read_apply]
  show V c main_v22 _ = V c main_v22 _
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 256 + 1 * (y 1).val = (y 1).val; omega

/-- Window 4's block is the whole [256, 128] array at every point. -/
theorem whole_block4 (c : Dev nD) (t : Fin cfg0.N) (y : S256x128.Idx) :
    iblk0 V c 4 t y = (V c main_v17 : S256x128.Idx → EReal) y := by
  have e0 : win0_4.index t (0 : Fin 2) = 0 := (index_facts t).2.2.2.2.2.2.2.2.2.2.2.2.1
  have e1 : win0_4.index t (1 : Fin 2) = 0 := (index_facts t).2.2.2.2.2.2.2.2.2.2.2.2.2.1
  unfold iblk0
  rw [View.read_apply]
  show V c main_v17 _ = V c main_v17 _
  refine congrArg _ (funext fun a => Fin.ext ?_)
  match a with
  | ⟨0, _⟩ => show win0_4.index t (0 : Fin 2) * 256 + 1 * (y 0).val = (y 0).val; omega
  | ⟨1, _⟩ => show win0_4.index t (1 : Fin 2) * 128 + 1 * (y 1).val = (y 1).val; omega

/-- Window 5's block is the whole [1, 128] array at every point. -/
theorem whole_block5 (c : Dev nD) (t : Fin cfg0.N) (y : S1x128.Idx) :
    iblk0 V c 5 t y = (V c main_v23 : S1x128.Idx → EReal) y := by
  have e0 : win0_5.index t (0 : Fin 2) = 0 := (index_facts t).2.2.2.2.2.2.2.2.2.2.2.2.2.2.1
  have e1 : win0_5.index t (1 : Fin 2) = 0 := (index_facts t).2.2.2.2.2.2.2.2.2.2.2.2.2.2.2.1
  unfold iblk0
  rw [View.read_apply]
  show V c main_v23 _ = V c main_v23 _
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 128 + 1 * (y 1).val = (y 1).val; omega

/-- Window 6's block is the whole [128, 64] array at every point. -/
theorem whole_block6 (c : Dev nD) (t : Fin cfg0.N) (y : S128x64.Idx) :
    iblk0 V c 6 t y = (V c main_v19 : S128x64.Idx → EReal) y := by
  have e0 : win0_6.index t (0 : Fin 2) = 0 := (index_facts t).2.2.2.2.2.2.2.2.2.2.2.2.2.2.2.2.1
  have e1 : win0_6.index t (1 : Fin 2) = 0 := (index_facts t).2.2.2.2.2.2.2.2.2.2.2.2.2.2.2.2.2.1
  unfold iblk0
  rw [View.read_apply]
  show V c main_v19 _ = V c main_v19 _
  refine congrArg _ (funext fun a => Fin.ext ?_)
  match a with
  | ⟨0, _⟩ => show win0_6.index t (0 : Fin 2) * 128 + 1 * (y 0).val = (y 0).val; omega
  | ⟨1, _⟩ => show win0_6.index t (1 : Fin 2) * 64 + 1 * (y 1).val = (y 1).val; omega

/-- Window 7's block is the whole [1, 64] array at every point. -/
theorem whole_block7 (c : Dev nD) (t : Fin cfg0.N) (y : S1x64.Idx) :
    iblk0 V c 7 t y = (V c main_v24 : S1x64.Idx → EReal) y := by
  have e0 : win0_7.index t (0 : Fin 2) = 0 := (index_facts t).2.2.2.2.2.2.2.2.2.2.2.2.2.2.2.2.2.2.1
  have e1 : win0_7.index t (1 : Fin 2) = 0 := (index_facts t).2.2.2.2.2.2.2.2.2.2.2.2.2.2.2.2.2.2.2.1
  unfold iblk0
  rw [View.read_apply]
  show V c main_v24 _ = V c main_v24 _
  refine congrArg _ (funext fun a => Fin.ext ?_)
  match a with
  | ⟨0, _⟩ => show win0_7.index t (0 : Fin 2) * 1 + 1 * (y 0).val = (y 0).val; omega
  | ⟨1, _⟩ => show win0_7.index t (1 : Fin 2) * 64 + 1 * (y 1).val = (y 1).val; omega

/-- Window 8's block is the whole [64, 1] array at every point. -/
theorem whole_block8 (c : Dev nD) (t : Fin cfg0.N) (y : S64x1.Idx) :
    iblk0 V c 8 t y = (V c main_v21 : S64x1.Idx → EReal) y := by
  have e0 : win0_8.index t (0 : Fin 2) = 0 := (index_facts t).2.2.2.2.2.2.2.2.2.2.2.2.2.2.2.2.2.2.2.2.1
  have e1 : win0_8.index t (1 : Fin 2) = 0 := (index_facts t).2.2.2.2.2.2.2.2.2.2.2.2.2.2.2.2.2.2.2.2.2.1
  unfold iblk0
  rw [View.read_apply]
  show V c main_v21 _ = V c main_v21 _
  refine congrArg _ (funext fun a => Fin.ext ?_)
  match a with
  | ⟨0, _⟩ => show win0_8.index t (0 : Fin 2) * 64 + 1 * (y 0).val = (y 0).val; omega
  | ⟨1, _⟩ => show win0_8.index t (1 : Fin 2) * 1 + 1 * (y 1).val = (y 1).val; omega

/-- Window 9's block is the whole [1, 1] array at every point. -/
theorem whole_block9 (c : Dev nD) (t : Fin cfg0.N) (y : S1x1.Idx) :
    iblk0 V c 9 t y = (V c main_v25 : S1x1.Idx → EReal) y := by
  have e0 : win0_9.index t (0 : Fin 2) = 0 := (index_facts t).2.2.2.2.2.2.2.2.2.2.2.2.2.2.2.2.2.2.2.2.2.2.1
  have e1 : win0_9.index t (1 : Fin 2) = 0 := (index_facts t).2.2.2.2.2.2.2.2.2.2.2.2.2.2.2.2.2.2.2.2.2.2.2
  unfold iblk0
  rw [View.read_apply]
  show V c main_v25 _ = V c main_v25 _
  refine congrArg _ (funext fun a => Fin.ext ?_)
  match a with
  | ⟨0, _⟩ => show win0_9.index t (0 : Fin 2) * 1 + 1 * (y 0).val = (y 0).val; omega
  | ⟨1, _⟩ => show win0_9.index t (1 : Fin 2) * 1 + 1 * (y 1).val = (y 1).val; omega

/-- The gate of every edge, from the arrays the region finds: the gathered rows, the transposed weights, the biases
    (each a one-row matrix here). -/
abbrev gateOf (c : Dev nD) : S800000x1.Idx → EReal :=
  gateArr (V c main_v6) (V c main_v13) (V c main_v15) (fun i => (V c main_v22 : S1x256.Idx → EReal) (ix2 (0 : Fin 1) (i 0)))
    (V c main_v17) (fun i => (V c main_v23 : S1x128.Idx → EReal) (ix2 (0 : Fin 1) (i 0)))
    (V c main_v19) (fun i => (V c main_v24 : S1x64.Idx → EReal) (ix2 (0 : Fin 1) (i 0)))
    (V c main_v21) (fun i => (V c main_v25 : S1x1.Idx → EReal) (ix2 (0 : Fin 1) (i 0)))

/-- Every edge's message from the same arrays. -/
abbrev msgOf (c : Dev nD) : S800000x64.Idx → EReal := msgArr (gateOf V c) (V c main_v6)

/-- The body's gate at row p of point t's blocks is the gate of edge r = 3200·t + p. -/
theorem gate_block_entry (c : Dev nD) (t : Fin cfg0.N) (p : Fin 3200) (u : Fin 1) (r : Fin 800000)
    (hr : r.val = win0_11.index t (0 : Fin 2) * 3200 + p.val) :
    k0_pay1 (k0_pay4 (iblk0 V c 0 t) (iblk0 V c 1 t) (iblk0 V c 2 t) (iblk0 V c 3 t) (iblk0 V c 4 t) (iblk0 V c 5 t) (iblk0 V c 6 t)) (iblk0 V c 7 t) (iblk0 V c 8 t) (iblk0 V c 9 t) (ix2 p u)
      = gateOf V c (ix2 r (0 : Fin 1)) := by
  refine (gate_payload (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) p u).trans ?_
  have h0 : ∀ k : Fin 64, (iblk0 V c 0 t : Vec Ideal S3200x64 .f32) (ix2 p k) = (V c main_v6 : S800000x64.Idx → EReal) (ix2 r k) :=
    fun k => rows_block0 V c t p k r hr
  have h1 : ∀ k : Fin 64, (iblk0 V c 1 t : Vec Ideal S3200x64 .f32) (ix2 p k) = (V c main_v13 : S800000x64.Idx → EReal) (ix2 r k) :=
    fun k => rows_block1 V c t p k r hr
  unfold gateOf gateArr
  simp only [h0, h1, whole_block2, whole_block3, whole_block4, whole_block5, whole_block6, whole_block7, whole_block8, whole_block9]

/-- What point t writes back of the gate array is block t of the gate of every edge. -/
theorem flushed_gate (c : Dev nD) (t : Fin cfg0.N) :
    (dat0 V c).flushed 11 t = ((cfg0.win 11).blk t).view.read (Elt Ideal) (gateOf V c) := by
  have ht := point_lt t
  have e0 : win0_11.index t (0 : Fin 2) = t.val := (index_facts t).2.2.2.2.2.2.1
  have e1 : win0_11.index t (1 : Fin 2) = 0 := (index_facts t).2.2.2.2.2.2.2.1
  show (cfg0.win 11).cut (grid0.coords t) ((dat0 V c).after 11 t) = _
  rw [after0_11]
  unfold out0_11
  rw [View.canon_unit_zero hz]
  simp only [View.ld_unit_zero (S := S3200x64) hz, View.ld_unit_zero (S := S64x256) hz, View.ld_unit_zero (S := S1x256) hz, View.ld_unit_zero (S := S256x128) hz, View.ld_unit_zero (S := S1x128) hz, View.ld_unit_zero (S := S128x64) hz, View.ld_unit_zero (S := S1x64) hz, View.ld_unit_zero (S := S64x1) hz, View.ld_unit_zero (S := S1x1) hz]
  funext j
  obtain ⟨p, u, rfl⟩ : ∃ (p : Fin 3200) (u : Fin 1), j = ix2 p u := ⟨j 0, j 1, eq_ix2 j⟩
  rw [View.read_apply]
  refine (gate_block_entry V c t p u ⟨win0_11.index t (0 : Fin 2) * 3200 + p.val, by have := p.isLt; omega⟩ rfl).trans ?_
  refine congrArg (gateOf V c) (funext fun a => Fin.ext ?_)
  match a with
  | ⟨0, _⟩ => show win0_11.index t (0 : Fin 2) * 3200 + p.val = win0_11.index t (0 : Fin 2) * 3200 + 1 * p.val; omega
  | ⟨1, _⟩ => show 0 = win0_11.index t (1 : Fin 2) * 1 + 1 * u.val; have := u.isLt; omega

/-- Every edge is in the block of point ⌊edge / 3200⌋. -/
theorem cover_gate (i : S800000x1.Idx) :
    ∃ t : Fin cfg0.N, (cfg0.win 11).flush t = true ∧ i ∈ ((cfg0.win 11).blk t).view.set := by
  have hi0 : (i 0).val < 800000 := (i 0).isLt
  have hi1 : (i 1).val < 1 := (i 1).isLt
  obtain ⟨t, ht⟩ : ∃ t : Fin cfg0.N, t.val = (i 0).val / 3200 :=
    ⟨⟨(i 0).val / 3200, lt_of_lt_of_eq (by omega : (i 0).val / 3200 < 250) N_0.symm⟩, rfl⟩
  have e0 : win0_11.index t (0 : Fin 2) = t.val := (index_facts t).2.2.2.2.2.2.1
  have e1 : win0_11.index t (1 : Fin 2) = 0 := (index_facts t).2.2.2.2.2.2.2.1
  refine ⟨t, flush0_11 t, ?_⟩
  show i ∈ ((View.whole main_v26_1).slice (win0_11.rect t)).set
  rw [View.set_slice_whole, Rect.mem_set_unit]
  intro a
  match a with
  | ⟨0, _⟩ =>
    show win0_11.index t (0 : Fin 2) * 3200 ≤ (i 0).val ∧ (i 0).val < win0_11.index t (0 : Fin 2) * 3200 + 3200
    omega
  | ⟨1, _⟩ =>
    show win0_11.index t (1 : Fin 2) * 1 ≤ (i 1).val ∧ (i 1).val < win0_11.index t (1 : Fin 2) * 1 + 1
    omega

/-- The gate array after the region: the gate of every edge. -/
theorem gate_array (c : Dev nD) : (dat0 V c).arrAt 11 cfg0.N = gateOf V c :=
  (dat0 V c).arrAt_eq_of_cover 11 (gateOf V c) (fun t _ => flushed_gate V c t) (cover_gate)

/-- The body's message at row p, coordinate k of point t's blocks is the message entry (r, k) of edge r = 3200·t + p. -/
theorem msg_block_entry (c : Dev nD) (t : Fin cfg0.N) (p : Fin 3200) (k : Fin 64) (r : Fin 800000)
    (hr : r.val = win0_11.index t (0 : Fin 2) * 3200 + p.val) :
    k0_pay2 (k0_pay3 (iblk0 V c 0 t)) (k0_pay4 (iblk0 V c 0 t) (iblk0 V c 1 t) (iblk0 V c 2 t) (iblk0 V c 3 t) (iblk0 V c 4 t) (iblk0 V c 5 t) (iblk0 V c 6 t)) (iblk0 V c 7 t) (iblk0 V c 8 t) (iblk0 V c 9 t) (ix2 p k)
      = msgOf V c (ix2 r k) := by
  refine (message_payload (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) p k).trans ?_
  show _ * _ = gateOf V c (ix2 r (0 : Fin 1)) * (V c main_v6 : S800000x64.Idx → EReal) (ix2 r k)
  rw [← gate_block_entry V c t p 0 r hr, gate_payload]
  exact congrArg (_ * ·) (rows_block0 V c t p k r hr)

/-- What point t writes back of the message array is block t of the messages of every edge. -/
theorem flushed_msg (c : Dev nD) (t : Fin cfg0.N) :
    (dat0 V c).flushed 10 t = ((cfg0.win 10).blk t).view.read (Elt Ideal) (msgOf V c) := by
  have ht := point_lt t
  have e0 : win0_11.index t (0 : Fin 2) = t.val := (index_facts t).2.2.2.2.2.2.1
  have f0 : win0_10.index t (0 : Fin 2) = win0_11.index t (0 : Fin 2) := (index_facts t).2.2.2.2.1
  have f1 : win0_10.index t (1 : Fin 2) = 0 := (index_facts t).2.2.2.2.2.1
  show (cfg0.win 10).cut (grid0.coords t) ((dat0 V c).after 10 t) = _
  rw [after0_10]
  unfold out0_10
  rw [View.canon_unit_zero hz]
  simp only [View.ld_unit_zero (S := S3200x64) hz, View.ld_unit_zero (S := S64x256) hz, View.ld_unit_zero (S := S1x256) hz, View.ld_unit_zero (S := S256x128) hz, View.ld_unit_zero (S := S1x128) hz, View.ld_unit_zero (S := S128x64) hz, View.ld_unit_zero (S := S1x64) hz, View.ld_unit_zero (S := S64x1) hz, View.ld_unit_zero (S := S1x1) hz]
  funext j
  obtain ⟨p, k, rfl⟩ : ∃ (p : Fin 3200) (k : Fin 64), j = ix2 p k := ⟨j 0, j 1, eq_ix2 j⟩
  rw [View.read_apply]
  refine (msg_block_entry V c t p k ⟨win0_11.index t (0 : Fin 2) * 3200 + p.val, by have := p.isLt; omega⟩ rfl).trans ?_
  refine congrArg (msgOf V c) (funext fun a => Fin.ext ?_)
  match a with
  | ⟨0, _⟩ => show win0_11.index t (0 : Fin 2) * 3200 + p.val = win0_10.index t (0 : Fin 2) * 3200 + 1 * p.val; omega
  | ⟨1, _⟩ => show k.val = win0_10.index t (1 : Fin 2) * 64 + 1 * k.val; omega

/-- Every message entry is in the block of point ⌊edge / 3200⌋. -/
theorem cover_msg (i : S800000x64.Idx) :
    ∃ t : Fin cfg0.N, (cfg0.win 10).flush t = true ∧ i ∈ ((cfg0.win 10).blk t).view.set := by
  have hi0 : (i 0).val < 800000 := (i 0).isLt
  have hi1 : (i 1).val < 64 := (i 1).isLt
  obtain ⟨t, ht⟩ : ∃ t : Fin cfg0.N, t.val = (i 0).val / 3200 :=
    ⟨⟨(i 0).val / 3200, lt_of_lt_of_eq (by omega : (i 0).val / 3200 < 250) N_0.symm⟩, rfl⟩
  have e0 : win0_11.index t (0 : Fin 2) = t.val := (index_facts t).2.2.2.2.2.2.1
  have f0 : win0_10.index t (0 : Fin 2) = win0_11.index t (0 : Fin 2) := (index_facts t).2.2.2.2.1
  have f1 : win0_10.index t (1 : Fin 2) = 0 := (index_facts t).2.2.2.2.2.1
  refine ⟨t, flush0_10 t, ?_⟩
  show i ∈ ((View.whole main_v26_0).slice (win0_10.rect t)).set
  rw [View.set_slice_whole, Rect.mem_set_unit]
  intro a
  match a with
  | ⟨0, _⟩ =>
    show win0_10.index t (0 : Fin 2) * 3200 ≤ (i 0).val ∧ (i 0).val < win0_10.index t (0 : Fin 2) * 3200 + 3200
    omega
  | ⟨1, _⟩ =>
    show win0_10.index t (1 : Fin 2) * 64 ≤ (i 1).val ∧ (i 1).val < win0_10.index t (1 : Fin 2) * 64 + 64
    omega

/-- The message array after the region: gate times source row, for every edge. -/
theorem msg_array (c : Dev nD) : (dat0 V c).arrAt 10 cfg0.N = msgOf V c :=
  (dat0 V c).arrAt_eq_of_cover 10 (msgOf V c) (fun t _ => flushed_msg V c t) (cover_msg)

end Cert.KernelIdeal.EdgeRegion

end
-- ==== Proof.NodeBody.lean ====
/-
  The per-node kernel body, read at one entry.  Its block holds 4000 nodes; row p depends only on row p of the node
  features, of the summed messages and of the in-degree column, and on the two (whole) weight matrices and the bias.
  Read at (p, c) the body is the specification's row: the two matrix products as finite sums, the mean-aggregation
  quotient s / max(deg, 1) inside the second sum, the rectifier, the row's sum of squares as a sum over the 64
  coordinates, its square root against ε, and the final quotient.
-/
import proofs.«180253_j17454747091496_2_alg».proof.Proof.Gen.KernelIdeal.Skeleton
import proofs.«180253_j17454747091496_2_alg».proof.Proof.KernelProducts
import proofs.«180253_j17454747091496_2_alg».proof.Proof.Layouts
import proofs.«180253_j17454747091496_2_alg».proof.Proof.Spec
import Idealize.ShloMosaic.Lib.ValueLayout

set_option maxRecDepth 16384

noncomputable section

namespace Cert.KernelIdeal.NodeBody

open Idealize.ShloMosaic Idealize.ShloMosaic.ValueIdx Cert.KernelIdeal Cert.KernelIdeal.Gen Cert.KernelIdeal.Products
open Cert.GraphLayer Cert.GraphLayer.Layout

/-- The square root of a vector is the square root of each entry. -/
theorem sqrt_apply {s : Shape} {φ : FTy} (v : FVec Ideal s φ) (i : s.Idx) : sqrt v i = Ideal.sqrt (v i) := rfl

/-- A row sum of a [4000, 64] block into the zero word: entry p is the sum of row p's 64 coordinates. -/
theorem rowsum_apply (v : FVec Ideal S4000x64 .f32) (h : S4000x64.Reduces [1] S4000) (hφ : FKind.Formats .f32)
    (hacc : (0x00000000#32 : BitVec 32) = 0x00000000#32) (p : Fin 4000) :
    multiReduction .add [1] S4000 v 0x00000000#32 h hφ hacc (ix1 p) = ∑ k : Fin 64, v (ix2 p k) := by
  refine (Ideal.multiReduction_add_single v 0x00000000#32 h hφ hacc (ix1 p)).trans ?_
  exact Finset.sum_congr rfl fun k _ => congrArg v (funext fun a => Fin.ext (by
    match a with
    | ⟨0, _⟩ => rfl
    | ⟨1, _⟩ => rfl))

/-- The entry the body stores for node p of the block, coordinate c. -/
theorem node_payload (x0 x1 : Vec Ideal S4000x64 .f32) (x2 : Vec Ideal S4000x1 .f32) (x3 x4 : Vec Ideal S64x64 .bf16)
    (x5 : Vec Ideal S1x64 .f32) (p : Fin 4000) (c : Fin 64) :
    k1_pay1 x0 x1 x2 x3 x4 x5 (ix2 p c)
      = nodeRow (fun k => x0 (ix2 p k)) (fun k => x1 (ix2 p k)) (x2 (ix2 p (0 : Fin 1))) (fun k c => x3 (ix2 k c))
          (fun k c => x4 (ix2 k c)) (fun c => x5 (ix2 (0 : Fin 1) c)) c := by
  unfold k1_pay1
  simp only [divf_apply, broadcastTo_a1_ab_apply, maximumf_apply, sqrt_apply, shapeCast_a_a1_apply, rowsum_apply, node_matmul_apply,
    truncf_apply, select_apply, cmpf_apply, addf_apply, mulf_apply, broadcast_apply, shapeCast_self, broadcastTo_1b_ab_apply,
    nodeRow, nodePre, leaky]
  rw [rowsum_apply]
  simp only [divf_apply, broadcastTo_a1_ab_apply, maximumf_apply, node_matmul_apply,
    truncf_apply, select_apply, cmpf_apply, addf_apply, mulf_apply, broadcast_apply, shapeCast_self, broadcastTo_1b_ab_apply]
  rfl

end Cert.KernelIdeal.NodeBody

end
-- ==== Proof.NodeRegion.lean ====
/-
  The per-node region as a whole.  Point t of its 25 points works on nodes 4000·t … 4000·t + 3999: the node features,
  the summed messages, the in-degree column and the result move in blocks of 4000 rows; the two weight matrices and
  the bias are whole at every point.  What point t writes back is block t of the specification's node rows of the arrays
  the region finds, and the blocks cover all 100000 nodes.
-/
import proofs.«180253_j17454747091496_2_alg».proof.Proof.Gen.KernelIdeal.Frame
import proofs.«180253_j17454747091496_2_alg».proof.Proof.NodeBody
import proofs.«180253_j17454747091496_2_alg».proof.Proof.Spec
import Idealize.ShloMosaic.Lib.Pipeline.Value

set_option maxRecDepth 16384

noncomputable section

namespace Cert.KernelIdeal.NodeRegion

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.NodeBody Cert.GraphLayer

-- the TensorCore's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the four row-blocked windows sit at block row t, column block 0; the two
    weight windows and the bias window at block (0, 0). -/
theorem index_facts : ∀ t : Fin cfg1.N, win1_0.index t (0 : Fin 2) = win1_6.index t (0 : Fin 2)
    ∧ win1_0.index t (1 : Fin 2) = 0
    ∧ win1_1.index t (0 : Fin 2) = win1_6.index t (0 : Fin 2)
    ∧ win1_1.index t (1 : Fin 2) = 0
    ∧ win1_2.index t (0 : Fin 2) = win1_6.index t (0 : Fin 2)
    ∧ win1_2.index t (1 : Fin 2) = 0
    ∧ win1_6.index t (0 : Fin 2) = t.val
    ∧ win1_6.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0 :=
  (by decide +kernel : ∀ t : Fin grid1.N, _)

theorem point_lt (t : Fin cfg1.N) : t.val < 25 := lt_of_lt_of_eq t.isLt N_1

/-- Window 0's block at point t is rows 4000·t … 4000·t + 3999 of its [100000, 64] array. -/
theorem rows_block0 (c : Dev nD) (t : Fin cfg1.N) (p : Fin 4000) (k : Fin 64) (r : Fin 100000)
    (hr : r.val = win1_6.index t (0 : Fin 2) * 4000 + p.val) :
    iblk1 V c 0 t (ix2 p k) = (V c main_arg0 : S100000x64.Idx → EReal) (ix2 r k) := by
  have e0 : win1_0.index t (0 : Fin 2) = win1_6.index t (0 : Fin 2) := (index_facts t).1
  have e1 : win1_0.index t (1 : Fin 2) = 0 := (index_facts t).2.1
  unfold iblk1
  rw [View.read_apply]
  show V c main_arg0 _ = V c main_arg0 _
  refine congrArg _ (funext fun a => Fin.ext ?_)
  match a with
  | ⟨0, _⟩ => show win1_0.index t (0 : Fin 2) * 4000 + 1 * p.val = r.val; omega
  | ⟨1, _⟩ => show win1_0.index t (1 : Fin 2) * 64 + 1 * k.val = k.val; omega

/-- Window 1's block at point t is rows 4000·t … 4000·t + 3999 of its [100000, 64] array. -/
theorem rows_block1 (c : Dev nD) (t : Fin cfg1.N) (p : Fin 4000) (k : Fin 64) (r : Fin 100000)
    (hr : r.val = win1_6.index t (0 : Fin 2) * 4000 + p.val) :
    iblk1 V c 1 t (ix2 p k) = (V c main_v29 : S100000x64.Idx → EReal) (ix2 r k) := by
  have e0 : win1_1.index t (0 : Fin 2) = win1_6.index t (0 : Fin 2) := (index_facts t).2.2.1
  have e1 : win1_1.index t (1 : Fin 2) = 0 := (index_facts t).2.2.2.1
  unfold iblk1
  rw [View.read_apply]
  show V c main_v29 _ = V c main_v29 _
  refine congrArg _ (funext fun a => Fin.ext ?_)
  match a with
  | ⟨0, _⟩ => show win1_1.index t (0 : Fin 2) * 4000 + 1 * p.val = r.val; omega
  | ⟨1, _⟩ => show win1_1.index t (1 : Fin 2) * 64 + 1 * k.val = k.val; omega

/-- Window 2's block at point t is rows 4000·t … 4000·t + 3999 of its [100000, 1] array. -/
theorem rows_block2 (c : Dev nD) (t : Fin cfg1.N) (p : Fin 4000) (k : Fin 1) (r : Fin 100000)
    (hr : r.val = win1_6.index t (0 : Fin 2) * 4000 + p.val) :
    iblk1 V c 2 t (ix2 p k) = (V c main_v34 : S100000x1.Idx → EReal) (ix2 r k) := by
  have e0 : win1_2.index t (0 : Fin 2) = win1_6.index t (0 : Fin 2) := (index_facts t).2.2.2.2.1
  have e1 : win1_2.index t (1 : Fin 2) = 0 := (index_facts t).2.2.2.2.2.1
  unfold iblk1
  rw [View.read_apply]
  show V c main_v34 _ = V c main_v34 _
  refine congrArg _ (funext fun a => Fin.ext ?_)
  match a with
  | ⟨0, _⟩ => show win1_2.index t (0 : Fin 2) * 4000 + 1 * p.val = r.val; omega
  | ⟨1, _⟩ => show win1_2.index t (1 : Fin 2) * 1 + 1 * k.val = k.val; omega

/-- Window 3's block is the whole [64, 64] array at every point. -/
theorem whole_block3 (c : Dev nD) (t : Fin cfg1.N) (y : S64x64.Idx) :
    iblk1 V c 3 t y = (V c main_v36 : S64x64.Idx → EReal) y := by
  have e0 : win1_3.index t (0 : Fin 2) = 0 := (index_facts t).2.2.2.2.2.2.2.2.1
  have e1 : win1_3.index t (1 : Fin 2) = 0 := (index_facts t).2.2.2.2.2.2.2.2.2.1
  unfold iblk1
  rw [View.read_apply]
  show V c main_v36 _ = V c main_v36 _
  refine congrArg _ (funext fun a => Fin.ext ?_)
  match a with
  | ⟨0, _⟩ => show win1_3.index t (0 : Fin 2) * 64 + 1 * (y 0).val = (y 0).val; omega
  | ⟨1, _⟩ => show win1_3.index t (1 : Fin 2) * 64 + 1 * (y 1).val = (y 1).val; omega

/-- Window 4's block is the whole [64, 64] array at every point. -/
theorem whole_block4 (c : Dev nD) (t : Fin cfg1.N) (y : S64x64.Idx) :
    iblk1 V c 4 t y = (V c main_v38 : S64x64.Idx → EReal) y := by
  have e0 : win1_4.index t (0 : Fin 2) = 0 := (index_facts t).2.2.2.2.2.2.2.2.2.2.1
  have e1 : win1_4.index t (1 : Fin 2) = 0 := (index_facts t).2.2.2.2.2.2.2.2.2.2.2.1
  unfold iblk1
  rw [View.read_apply]
  show V c main_v38 _ = V c main_v38 _
  refine congrArg _ (funext fun a => Fin.ext ?_)
  match a with
  | ⟨0, _⟩ => show win1_4.index t (0 : Fin 2) * 64 + 1 * (y 0).val = (y 0).val; omega
  | ⟨1, _⟩ => show win1_4.index t (1 : Fin 2) * 64 + 1 * (y 1).val = (y 1).val; omega

/-- Window 5's block is the whole [1, 64] array at every point. -/
theorem whole_block5 (c : Dev nD) (t : Fin cfg1.N) (y : S1x64.Idx) :
    iblk1 V c 5 t y = (V c main_v39 : S1x64.Idx → EReal) y := by
  have e0 : win1_5.index t (0 : Fin 2) = 0 := (index_facts t).2.2.2.2.2.2.2.2.2.2.2.2.1
  have e1 : win1_5.index t (1 : Fin 2) = 0 := (index_facts t).2.2.2.2.2.2.2.2.2.2.2.2.2
  unfold iblk1
  rw [View.read_apply]
  show V c main_v39 _ = V c main_v39 _
  refine congrArg _ (funext fun a => Fin.ext ?_)
  match a with
  | ⟨0, _⟩ => show win1_5.index t (0 : Fin 2) * 1 + 1 * (y 0).val = (y 0).val; omega
  | ⟨1, _⟩ => show win1_5.index t (1 : Fin 2) * 64 + 1 * (y 1).val = (y 1).val; omega

/-- Every node's result row from the arrays the region finds: the node features, the summed messages, the in-degree
    column, the two transposed weight matrices and the bias (a one-row matrix here). -/
abbrev nodeOf (c : Dev nD) : S100000x64.Idx → EReal :=
  nodeArr (V c main_arg0) (V c main_v29) (V c main_v34) (V c main_v36) (V c main_v38)
    (fun i => (V c main_v39 : S1x64.Idx → EReal) (ix2 (0 : Fin 1) (i 0)))

/-- The body's entry at row p, coordinate k of point t's blocks is the result entry (r, k) of node r = 4000·t + p. -/
theorem node_block_entry (c : Dev nD) (t : Fin cfg1.N) (p : Fin 4000) (k : Fin 64) (r : Fin 100000)
    (hr : r.val = win1_6.index t (0 : Fin 2) * 4000 + p.val) :
    k1_pay1 (iblk1 V c 0 t) (iblk1 V c 1 t) (iblk1 V c 2 t) (iblk1 V c 3 t) (iblk1 V c 4 t) (iblk1 V c 5 t) (ix2 p k) = nodeOf V c (ix2 r k) := by
  refine (node_payload (iblk1 V c 0 t) (iblk1 V c 1 t) (iblk1 V c 2 t) (iblk1 V c 3 t) (iblk1 V c 4 t) (iblk1 V c 5 t) p k).trans ?_
  have h0 : ∀ k : Fin 64, (iblk1 V c 0 t : Vec Ideal S4000x64 .f32) (ix2 p k) = (V c main_arg0 : S100000x64.Idx → EReal) (ix2 r k) :=
    fun k => rows_block0 V c t p k r hr
  have h1 : ∀ k : Fin 64, (iblk1 V c 1 t : Vec Ideal S4000x64 .f32) (ix2 p k) = (V c main_v29 : S100000x64.Idx → EReal) (ix2 r k) :=
    fun k => rows_block1 V c t p k r hr
  have h2 : (iblk1 V c 2 t : Vec Ideal S4000x1 .f32) (ix2 p (0 : Fin 1)) = (V c main_v34 : S100000x1.Idx → EReal) (ix2 r (0 : Fin 1)) :=
    rows_block2 V c t p 0 r hr
  unfold nodeOf nodeArr
  simp only [h0, h1, h2, whole_block3, whole_block4, whole_block5]

/-- What point t writes back of the result array is block t of every node's result row. -/
theorem flushed_node (c : Dev nD) (t : Fin cfg1.N) :
    (dat1 V c).flushed 6 t = ((cfg1.win 6).blk t).view.read (Elt Ideal) (nodeOf V c) := by
  have ht := point_lt t
  have e0 : win1_6.index t (0 : Fin 2) = t.val := (index_facts t).2.2.2.2.2.2.1
  have e1 : win1_6.index t (1 : Fin 2) = 0 := (index_facts t).2.2.2.2.2.2.2.1
  show (cfg1.win 6).cut (grid1.coords t) ((dat1 V c).after 6 t) = _
  rw [after1_6]
  unfold out1_6
  rw [View.canon_unit_zero hz]
  simp only [View.ld_unit_zero (S := S4000x64) hz, View.ld_unit_zero (S := S4000x1) hz, View.ld_unit_zero (S := S64x64) hz, View.ld_unit_zero (S := S1x64) hz]
  funext j
  obtain ⟨p, k, rfl⟩ : ∃ (p : Fin 4000) (k : Fin 64), j = ix2 p k := ⟨j 0, j 1, eq_ix2 j⟩
  rw [View.read_apply]
  refine (node_block_entry V c t p k ⟨win1_6.index t (0 : Fin 2) * 4000 + p.val, by have := p.isLt; omega⟩ rfl).trans ?_
  refine congrArg (nodeOf V c) (funext fun a => Fin.ext ?_)
  match a with
  | ⟨0, _⟩ => show win1_6.index t (0 : Fin 2) * 4000 + p.val = win1_6.index t (0 : Fin 2) * 4000 + 1 * p.val; omega
  | ⟨1, _⟩ => show k.val = win1_6.index t (1 : Fin 2) * 64 + 1 * k.val; omega

/-- Every node is in the block of point ⌊node / 4000⌋. -/
theorem cover_node (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  obtain ⟨t, ht⟩ : ∃ t : Fin cfg1.N, t.val = (i 0).val / 4000 :=
    ⟨⟨(i 0).val / 4000, lt_of_lt_of_eq (by omega : (i 0).val / 4000 < 25) N_1.symm⟩, rfl⟩
  have e0 : win1_6.index t (0 : Fin 2) = t.val := (index_facts t).2.2.2.2.2.2.1
  have e1 : win1_6.index t (1 : Fin 2) = 0 := (index_facts t).2.2.2.2.2.2.2.1
  refine ⟨t, flush1_6 t, ?_⟩
  show i ∈ ((View.whole main_v40).slice (win1_6.rect t)).set
  rw [View.set_slice_whole, Rect.mem_set_unit]
  intro a
  match a with
  | ⟨0, _⟩ =>
    show win1_6.index t (0 : Fin 2) * 4000 ≤ (i 0).val ∧ (i 0).val < win1_6.index t (0 : Fin 2) * 4000 + 4000
    omega
  | ⟨1, _⟩ =>
    show win1_6.index t (1 : Fin 2) * 64 ≤ (i 1).val ∧ (i 1).val < win1_6.index t (1 : Fin 2) * 64 + 64
    omega

/-- The result array after the region: every node's result row. -/
theorem node_array (c : Dev nD) : (dat1 V c).arrAt 6 cfg1.N = nodeOf V c :=
  (dat1 V c).arrAt_eq_of_cover 6 (nodeOf V c) (fun t _ => flushed_node V c t) (cover_node)

end Cert.KernelIdeal.NodeRegion

end
-- ==== Proof.KernelValue.lean ====
/-
  The idealized kernel's two results as functions of its arguments.  Walking the four segments of the program:
  the first host stretch gathers the source and destination rows and lays out the weights; the per-edge region leaves
  the gates and the messages of every edge; the second host stretch adds each message into its destination's row,
  counts the arrivals, and lays out the node weights; the per-node region leaves every node's result row.  Read at the
  two result buffers, the last boundary's contents are the specification's gate array and node array of the launch
  memory's arguments.
-/
import proofs.«180253_j17454747091496_2_alg».proof.Proof.Gen.KernelIdeal.Frame
import proofs.«180253_j17454747091496_2_alg».proof.Proof.EdgeRegion
import proofs.«180253_j17454747091496_2_alg».proof.Proof.NodeRegion
import proofs.«180253_j17454747091496_2_alg».proof.Proof.Layouts
import proofs.«180253_j17454747091496_2_alg».proof.Proof.Spec
import Idealize.ShloMosaic.Lib.StableHlo.Run
import Idealize.ShloMosaic.Lib.ValueLayout

set_option maxRecDepth 16384

noncomputable section

namespace Cert.KernelIdeal.Whole

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen Cert.KernelIdeal.EdgeRegion Cert.KernelIdeal.NodeRegion Cert.GraphLayer Cert.GraphLayer.Layout

variable (m : (ℓ : Loc nD τ sig) → Buf (Elt Ideal) ℓ) (ρ : Dev nD → PrngReg)

/-! ## The host terms -/

/-- An index vector with negative entries wrapped by the node count, as a one-column matrix (jnp's indexing). -/
def wrapped (a : (⟨S800000, .i32⟩ : BufTy).Contents (Elt Ideal)) : (⟨S800000x1, .i32⟩ : BufTy).Contents (Elt Ideal) :=
  broadcastInDim S800000x1 ![0] bcast_S800000_S800000x1_0
    (select (cmpi .slt a (broadcastInDim S800000 ![] bcast_S_S800000 (constantI S_ 32 0#32)))
      (addi a (broadcastInDim S800000 ![] bcast_S_S800000 (constantI S_ 32 100000#32))) a)

/-- The node rows gathered along an index vector. -/
def gathered (x : (⟨S100000x64, .f32⟩ : BufTy).Contents (Elt Ideal)) (a : (⟨S800000, .i32⟩ : BufTy).Contents (Elt Ideal)) :
    (⟨S800000x64, .f32⟩ : BufTy).Contents (Elt Ideal) :=
  Host.gather gather_S100000x64_S800000x1_S800000x64_1_0_n_n_0_1_164 x (wrapped a)

/-- The gate of every edge, from the launch memory's arguments. -/
def gateK (c : Dev nD) : S800000x1.Idx → EReal :=
  gateArr (gathered (m ((c : Thread nD τ).loc main_arg0)) (m ((c : Thread nD τ).loc main_arg1))) (gathered (m ((c : Thread nD τ).loc main_arg0)) (m ((c : Thread nD τ).loc main_arg2)))
    (transpose S64x256 [1, 0] (m ((c : Thread nD τ).loc main_arg3)) transposes_S256x64_S64x256_1_0) (m ((c : Thread nD τ).loc main_arg4))
    (transpose S256x128 [1, 0] (m ((c : Thread nD τ).loc main_arg5)) transposes_S128x256_S256x128_1_0) (m ((c : Thread nD τ).loc main_arg6))
    (transpose S128x64 [1, 0] (m ((c : Thread nD τ).loc main_arg7)) transposes_S64x128_S128x64_1_0) (m ((c : Thread nD τ).loc main_arg8))
    (transpose S64x1 [1, 0] (m ((c : Thread nD τ).loc main_arg9)) transposes_S1x64_S64x1_1_0) (m ((c : Thread nD τ).loc main_arg10))

/-- The messages summed into their destination rows. -/
def summedK (c : Dev nD) : (⟨S100000x64, .f32⟩ : BufTy).Contents (Elt Ideal) :=
  Host.scatterAdd scatter_S100000x64_S800000x1_S800000x64_1_0_0_1
    (broadcastInDim S100000x64 ![] bcast_S_S100000x64 (constant (F := Ideal) S_ .f32 0x00000000#32))
    (broadcastInDim S800000x1 ![0] bcast_S800000_S800000x1_0 (m ((c : Thread nD τ).loc main_arg2)))
    (msgArr (gateK m c) (gathered (m ((c : Thread nD τ).loc main_arg0)) (m ((c : Thread nD τ).loc main_arg1))))

/-- The number of edges arriving at each node. -/
def degreeK (c : Dev nD) : (⟨S100000, .f32⟩ : BufTy).Contents (Elt Ideal) :=
  Host.scatterAdd scatter_S100000_S800000x1_S800000_n_0_0_1
    (broadcastInDim S100000 ![] bcast_S_S100000 (constant (F := Ideal) S_ .f32 0x00000000#32))
    (broadcastInDim S800000x1 ![0] bcast_S800000_S800000x1_0 (m ((c : Thread nD τ).loc main_arg2)))
    (broadcastInDim S800000 ![] bcast_S_S800000 (constant (F := Ideal) S_ .f32 0x3F800000#32))

/-- Every node's result row, from the launch memory's arguments. -/
def nodeK (c : Dev nD) : S100000x64.Idx → EReal :=
  nodeArr (m ((c : Thread nD τ).loc main_arg0)) (summedK m c) (fun i => degreeK m c (ix1 (i 0)))
    (transpose S64x64 [1, 0] (m ((c : Thread nD τ).loc main_arg11)) transposes_S64x64_S64x64_1_0)
    (transpose S64x64 [1, 0] (m ((c : Thread nD τ).loc main_arg12)) transposes_S64x64_S64x64_1_0) (m ((c : Thread nD τ).loc main_arg13))

/-! ## The first host stretch: what the per-edge region finds -/

theorem entry_v6 (c : Dev nD) : (V1 m ρ c main_v6 : S800000x64.Idx → EReal) = gathered (m ((c : Thread nD τ).loc main_arg0)) (m ((c : Thread nD τ).loc main_arg1)) := by
  dsimp only [V1, W1, hostOps0]; after_results_simp <;> rfl
theorem entry_v13 (c : Dev nD) : (V1 m ρ c main_v13 : S800000x64.Idx → EReal) = gathered (m ((c : Thread nD τ).loc main_arg0)) (m ((c : Thread nD τ).loc main_arg2)) := by
  dsimp only [V1, W1, hostOps0]; after_results_simp <;> rfl
theorem entry_v15 (c : Dev nD) : (V1 m ρ c main_v15 : S64x256.Idx → EReal) = transpose S64x256 [1, 0] (m ((c : Thread nD τ).loc main_arg3)) transposes_S256x64_S64x256_1_0 := by
  dsimp only [V1, W1, hostOps0]; after_results <;> rfl
theorem entry_v17 (c : Dev nD) : (V1 m ρ c main_v17 : S256x128.Idx → EReal) = transpose S256x128 [1, 0] (m ((c : Thread nD τ).loc main_arg5)) transposes_S128x256_S256x128_1_0 := by
  dsimp only [V1, W1, hostOps0]; after_results <;> rfl
theorem entry_v19 (c : Dev nD) : (V1 m ρ c main_v19 : S128x64.Idx → EReal) = transpose S128x64 [1, 0] (m ((c : Thread nD τ).loc main_arg7)) transposes_S64x128_S128x64_1_0 := by
  dsimp only [V1, W1, hostOps0]; after_results <;> rfl
theorem entry_v21 (c : Dev nD) : (V1 m ρ c main_v21 : S64x1.Idx → EReal) = transpose S64x1 [1, 0] (m ((c : Thread nD τ).loc main_arg9)) transposes_S1x64_S64x1_1_0 := by
  dsimp only [V1, W1, hostOps0]; after_results <;> rfl
theorem entry_v22 (c : Dev nD) : (V1 m ρ c main_v22 : S1x256.Idx → EReal) = shapeCast S1x256 (m ((c : Thread nD τ).loc main_arg4)) shapeCasts_S256_S1x256 := by
  dsimp only [V1, W1, hostOps0]; after_results <;> rfl
theorem entry_v23 (c : Dev nD) : (V1 m ρ c main_v23 : S1x128.Idx → EReal) = shapeCast S1x128 (m ((c : Thread nD τ).loc main_arg6)) shapeCasts_S128_S1x128 := by
  dsimp only [V1, W1, hostOps0]; after_results <;> rfl
theorem entry_v24 (c : Dev nD) : (V1 m ρ c main_v24 : S1x64.Idx → EReal) = shapeCast S1x64 (m ((c : Thread nD τ).loc main_arg8)) shapeCasts_S64_S1x64 := by
  dsimp only [V1, W1, hostOps0]; after_results <;> rfl
theorem entry_v25 (c : Dev nD) : (V1 m ρ c main_v25 : S1x1.Idx → EReal) = shapeCast S1x1 (m ((c : Thread nD τ).loc main_arg10)) shapeCasts_S1_S1x1 := by
  dsimp only [V1, W1, hostOps0]; after_results <;> rfl

/-- A vector laid out as a one-row matrix and read back along its row is the vector. -/
theorem row_of_vector {a : ℕ} (x : (⟨1, ![a]⟩ : Shape).Idx → EReal) (h : (⟨1, ![a]⟩ : Shape).ShapeCasts ⟨2, ![1, a]⟩) :
    (fun i : (⟨1, ![a]⟩ : Shape).Idx => shapeCast ⟨2, ![1, a]⟩ x h (ix2 (0 : Fin 1) (i 0))) = x :=
  funext fun i => (shapeCast_a_1a_apply x h 0 (i 0)).trans (congrArg x (eq_ix1 i).symm)

/-- The gate array the per-edge region leaves is the gate of every edge of the arguments. -/
theorem gate_entry (c : Dev nD) : gateOf (V1 m ρ) c = gateK m c := by
  unfold gateK
  show gateArr (V1 m ρ c main_v6) (V1 m ρ c main_v13) (V1 m ρ c main_v15) _ (V1 m ρ c main_v17) _ (V1 m ρ c main_v19) _ (V1 m ρ c main_v21) _ = _
  rw [entry_v6, entry_v13, entry_v15, entry_v17, entry_v19, entry_v21, entry_v22, entry_v23, entry_v24, entry_v25]
  rw [row_of_vector, row_of_vector, row_of_vector, row_of_vector]

/-- The message array the per-edge region leaves. -/
theorem msg_entry (c : Dev nD) : msgOf (V1 m ρ) c = msgArr (gateK m c) (gathered (m ((c : Thread nD τ).loc main_arg0)) (m ((c : Thread nD τ).loc main_arg1))) := by
  show msgArr (gateOf (V1 m ρ) c) (V1 m ρ c main_v6) = _
  rw [gate_entry, entry_v6]

/-! ## The arguments the second stretch and the per-node region read are as launched -/

theorem W2_arg0 (c : Dev nD) : W2 m ρ c (Proc.devRef .tc main_arg0) = m ((c : Thread nD τ).loc main_arg0) :=
  (W2_of_ne m ρ c main_arg0 (by decide)).trans
    ((StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) :
      W1 m ρ c (Proc.devRef .tc main_arg0) = W0 m ρ c (Proc.devRef .tc main_arg0)).trans rfl)

theorem W2_arg2 (c : Dev nD) : W2 m ρ c (Proc.devRef .tc main_arg2) = m ((c : Thread nD τ).loc main_arg2) :=
  (W2_of_ne m ρ c main_arg2 (by decide)).trans
    ((StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) :
      W1 m ρ c (Proc.devRef .tc main_arg2) = W0 m ρ c (Proc.devRef .tc main_arg2)).trans rfl)

theorem W2_arg11 (c : Dev nD) : W2 m ρ c (Proc.devRef .tc main_arg11) = m ((c : Thread nD τ).loc main_arg11) :=
  (W2_of_ne m ρ c main_arg11 (by decide)).trans
    ((StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) :
      W1 m ρ c (Proc.devRef .tc main_arg11) = W0 m ρ c (Proc.devRef .tc main_arg11)).trans rfl)

theorem W2_arg12 (c : Dev nD) : W2 m ρ c (Proc.devRef .tc main_arg12) = m ((c : Thread nD τ).loc main_arg12) :=
  (W2_of_ne m ρ c main_arg12 (by decide)).trans
    ((StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) :
      W1 m ρ c (Proc.devRef .tc main_arg12) = W0 m ρ c (Proc.devRef .tc main_arg12)).trans rfl)

theorem W2_arg13 (c : Dev nD) : W2 m ρ c (Proc.devRef .tc main_arg13) = m ((c : Thread nD τ).loc main_arg13) :=
  (W2_of_ne m ρ c main_arg13 (by decide)).trans
    ((StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) :
      W1 m ρ c (Proc.devRef .tc main_arg13) = W0 m ρ c (Proc.devRef .tc main_arg13)).trans rfl)

/-! ## The edge gates: the second result -/

/-- The gate result buffer ends at the gate of every edge. -/
theorem result_gate (c : Dev nD) : W4 m ρ c (Proc.devRef .tc main_v26_1) = gateK m c :=
  calc W4 m ρ c (Proc.devRef .tc main_v26_1)
    _ = W3 m ρ c (Proc.devRef .tc main_v26_1) := W4_of_ne m ρ c main_v26_1 (by decide)
    _ = W2 m ρ c (Proc.devRef .tc main_v26_1) := StableHlo.after_of_forall_not_mem (b := Proc.devRef .tc main_v26_1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = (dat0 (V1 m ρ) c).arrAt 11 cfg0.N := W2_arr m ρ c 11
    _ = gateOf (V1 m ρ) c := gate_array (V1 m ρ) c
    _ = gateK m c := gate_entry m ρ c

/-! ## The second host stretch: what the per-node region finds -/

theorem W2_messages (c : Dev nD) : W2 m ρ c (Proc.devRef .tc main_v26_0) = msgArr (gateK m c) (gathered (m ((c : Thread nD τ).loc main_arg0)) (m ((c : Thread nD τ).loc main_arg1))) :=
  (W2_arr m ρ c 10).trans ((msg_array (V1 m ρ) c).trans (msg_entry m ρ c))

theorem entry_arg0 (c : Dev nD) : (V3 m ρ c main_arg0 : S100000x64.Idx → EReal) = (m ((c : Thread nD τ).loc main_arg0)) :=
  (StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) :
    W3 m ρ c (Proc.devRef .tc main_arg0) = W2 m ρ c (Proc.devRef .tc main_arg0)).trans (W2_arg0 m ρ c)

theorem entry_v29 (c : Dev nD) : (V3 m ρ c main_v29 : S100000x64.Idx → EReal) = summedK m c := by
  unfold summedK
  rw [← W2_messages m ρ c, ← W2_arg2 m ρ c]
  dsimp only [V3, W3, hostOps1]; after_results <;> rfl
theorem entry_v34 (c : Dev nD) : (V3 m ρ c main_v34 : S100000x1.Idx → EReal) = shapeCast S100000x1 (degreeK m c) shapeCasts_S100000_S100000x1 := by
  unfold degreeK
  rw [← W2_arg2 m ρ c]
  dsimp only [V3, W3, hostOps1]; after_results <;> rfl
theorem entry_v36 (c : Dev nD) : (V3 m ρ c main_v36 : S64x64.Idx → EReal) = transpose S64x64 [1, 0] (m ((c : Thread nD τ).loc main_arg11)) transposes_S64x64_S64x64_1_0 := by
  rw [← W2_arg11 m ρ c]
  dsimp only [V3, W3, hostOps1]; after_results <;> rfl
theorem entry_v38 (c : Dev nD) : (V3 m ρ c main_v38 : S64x64.Idx → EReal) = transpose S64x64 [1, 0] (m ((c : Thread nD τ).loc main_arg12)) transposes_S64x64_S64x64_1_0 := by
  rw [← W2_arg12 m ρ c]
  dsimp only [V3, W3, hostOps1]; after_results <;> rfl
theorem entry_v39 (c : Dev nD) : (V3 m ρ c main_v39 : S1x64.Idx → EReal) = shapeCast S1x64 (m ((c : Thread nD τ).loc main_arg13)) shapeCasts_S64_S1x64 := by
  rw [← W2_arg13 m ρ c]
  dsimp only [V3, W3, hostOps1]; after_results <;> rfl

/-- A vector stood up as a one-column matrix is read along its column. -/
theorem column_of_vector {a : ℕ} (x : (⟨1, ![a]⟩ : Shape).Idx → EReal) (h : (⟨1, ![a]⟩ : Shape).ShapeCasts ⟨2, ![a, 1]⟩) :
    shapeCast ⟨2, ![a, 1]⟩ x h = fun i => x (ix1 (i 0)) :=
  funext fun i => by
    obtain ⟨p, u, rfl⟩ : ∃ (p : Fin a) (u : Fin 1), i = ix2 p u := ⟨i 0, i 1, eq_ix2 i⟩
    exact shapeCast_a_a1_apply x h p u

/-! ## The node rows: the first result -/

/-- The node result buffer ends at every node's result row. -/
theorem result_node (c : Dev nD) : W4 m ρ c (Proc.devRef .tc main_v40) = nodeK m c := by
  refine (W4_arr m ρ c 6).trans ((node_array (V3 m ρ) c).trans ?_)
  unfold nodeK
  show nodeArr (V3 m ρ c main_arg0) (V3 m ρ c main_v29) (V3 m ρ c main_v34) (V3 m ρ c main_v36) (V3 m ρ c main_v38) _ = _
  rw [entry_arg0, entry_v29, entry_v34, entry_v36, entry_v38, entry_v39, row_of_vector, column_of_vector]

end Cert.KernelIdeal.Whole

end
-- ==== Proof.RefValueEdge.lean ====
/-
  The printed reference's edge network, read one element at a time, is the gate of the specification.

  Each rectified affine layer is read at an index (p, c): the dot product becomes the finite sum over the contracted
  coordinate, the broadcast bias and constants are read at their one element, and the result is the specification's
  `dense` row at c.  The last affine map feeds 1 / (1 + exp(-a)), which is the logistic by definition once the literal
  one is evaluated.  The gathered endpoint rows stay whole arrays throughout.
-/
import proofs.«180253_j17454747091496_2_alg».proof.Proof.Gen.ReferenceIdeal.Read
import proofs.«180253_j17454747091496_2_alg».proof.Proof.Spec
import Idealize.ShloMosaic.Lib.ValueIdx
import Idealize.ShloMosaic.Lib.IdealHost
import Idealize.ShloMosaic.PureOps.Ideal.Laws

noncomputable section

namespace Cert.ReferenceIdeal.RefValue

open Cert.ReferenceIdeal Cert.ReferenceIdeal.Gen Idealize.ShloMosaic Idealize.ShloMosaic.ValueIdx Cert.GraphLayer

variable (x0 : (⟨S100000x64, .f32⟩ : BufTy).Contents (Elt Ideal)) (x1 x2 : (⟨S800000, .i32⟩ : BufTy).Contents (Elt Ideal))
  (x3 : (⟨S256x64, .f32⟩ : BufTy).Contents (Elt Ideal)) (x4 : (⟨S256, .f32⟩ : BufTy).Contents (Elt Ideal))
  (x5 : (⟨S128x256, .f32⟩ : BufTy).Contents (Elt Ideal)) (x6 : (⟨S128, .f32⟩ : BufTy).Contents (Elt Ideal))
  (x7 : (⟨S64x128, .f32⟩ : BufTy).Contents (Elt Ideal)) (x8 : (⟨S64, .f32⟩ : BufTy).Contents (Elt Ideal))
  (x9 : (⟨S1x64, .f32⟩ : BufTy).Contents (Elt Ideal)) (x10 : (⟨S1, .f32⟩ : BufTy).Contents (Elt Ideal))
  (x11 x12 : (⟨S64x64, .f32⟩ : BufTy).Contents (Elt Ideal)) (x13 : (⟨S64, .f32⟩ : BufTy).Contents (Elt Ideal))

/-! ## Index equations: each contraction and broadcast index is the coordinate pair one expects -/

theorem lidx16 (p : Fin 800000) (c : Fin 256) (k : Fin 64) : Read.lidx_main_v16 (ix2 p c) k = ix2 p k :=
  funext fun a => Fin.ext (by match a with | ⟨0, _⟩ => rfl | ⟨1, _⟩ => rfl)
theorem ridx16 (p : Fin 800000) (c : Fin 256) (k : Fin 64) : Read.ridx_main_v16 (ix2 p c) k = ix2 k c :=
  funext fun a => Fin.ext (by match a with | ⟨0, _⟩ => rfl | ⟨1, _⟩ => rfl)
theorem bidx18 (p : Fin 800000) (c : Fin 256) : Read.idx_main_v17 (Read.idx_main_v18 (ix2 p c)) = ix1 c :=
  funext fun a => Fin.ext (by match a with | ⟨0, _⟩ => rfl)
theorem lidx26 (p : Fin 800000) (c : Fin 128) (k : Fin 256) : Read.lidx_main_v26 (ix2 p c) k = ix2 p k :=
  funext fun a => Fin.ext (by match a with | ⟨0, _⟩ => rfl | ⟨1, _⟩ => rfl)
theorem ridx26 (p : Fin 800000) (c : Fin 128) (k : Fin 256) : Read.ridx_main_v26 (ix2 p c) k = ix2 k c :=
  funext fun a => Fin.ext (by match a with | ⟨0, _⟩ => rfl | ⟨1, _⟩ => rfl)
theorem bidx28 (p : Fin 800000) (c : Fin 128) : Read.idx_main_v27 (Read.idx_main_v28 (ix2 p c)) = ix1 c :=
  funext fun a => Fin.ext (by match a with | ⟨0, _⟩ => rfl)
theorem lidx36 (p : Fin 800000) (c : Fin 64) (k : Fin 128) : Read.lidx_main_v36 (ix2 p c) k = ix2 p k :=
  funext fun a => Fin.ext (by match a with | ⟨0, _⟩ => rfl | ⟨1, _⟩ => rfl)
theorem ridx36 (p : Fin 800000) (c : Fin 64) (k : Fin 128) : Read.ridx_main_v36 (ix2 p c) k = ix2 k c :=
  funext fun a => Fin.ext (by match a with | ⟨0, _⟩ => rfl | ⟨1, _⟩ => rfl)
theorem bidx38 (p : Fin 800000) (c : Fin 64) : Read.idx_main_v37 (Read.idx_main_v38 (ix2 p c)) = ix1 c :=
  funext fun a => Fin.ext (by match a with | ⟨0, _⟩ => rfl)
theorem lidx46 (p : Fin 800000) (q : Fin 1) (k : Fin 64) : Read.lidx_main_v46 (ix2 p q) k = ix2 p k :=
  funext fun a => Fin.ext (by match a with | ⟨0, _⟩ => rfl | ⟨1, _⟩ => rfl)
theorem ridx46 (p : Fin 800000) (q : Fin 1) (k : Fin 64) : Read.ridx_main_v46 (ix2 p q) k = ix2 k 0 :=
  funext fun a => Fin.ext (by match a with | ⟨0, _⟩ => rfl | ⟨1, _⟩ => exact Nat.lt_one_iff.mp q.isLt)
theorem bidx48 (p : Fin 800000) (q : Fin 1) : Read.idx_main_v47 (Read.idx_main_v48 (ix2 p q)) = ix1 0 :=
  funext fun a => Fin.ext (by match a with | ⟨0, _⟩ => rfl)
theorem idx63 (p : Fin 800000) (c : Fin 64) : Read.idx_main_v63 (ix2 p c) = ix2 p 0 :=
  funext fun a => Fin.ext (by match a with | ⟨0, _⟩ => rfl | ⟨1, _⟩ => rfl)

/-! ## The edge network, layer by layer -/

/-- Layer 1 (64 → 256) at edge p, coordinate c: the rectified affine image of the difference of the endpoint rows. -/
theorem layer1 (p : Fin 800000) (c : Fin 256) :
    Read.val_main_v24 (F := Ideal) x0 x1 x2 x3 x4 (ix2 p c) =
      dense (fun k => Read.val_main_v6 (F := Ideal) x0 x1 (ix2 p k) - Read.val_main_v13 (F := Ideal) x0 x2 (ix2 p k))
        (fun k c => Read.val_main_v15 (F := Ideal) x3 (ix2 k c)) (fun c => x4 (ix1 c)) c := by
  unfold dense leaky affine
  simp only [Read.val_main_v24_apply, Read.val_main_v21_apply, Read.val_main_v23_apply, Read.val_main_v19_apply, Read.val_main_v16_apply, Read.val_main_v18_apply, Read.val_main_v17_apply, Read.val_main_v20_apply, Read.val_main_v22_apply, Read.val_main_cst_apply, Read.val_main_cst_3_apply, Read.val_main_v14_apply,
    lidx16, ridx16, bidx18,
    Ideal.addf_def, Ideal.mulf_def, Ideal.subf_def, Ideal.ofBits_def, Ideal.cmpf_def]

/-- Layer 2 (256 → 128) at edge p, coordinate c. -/
theorem layer2 (p : Fin 800000) (c : Fin 128) :
    Read.val_main_v34 (F := Ideal) x0 x1 x2 x3 x4 x5 x6 (ix2 p c) =
      dense (fun k => Read.val_main_v24 (F := Ideal) x0 x1 x2 x3 x4 (ix2 p k))
        (fun k c => Read.val_main_v25 (F := Ideal) x5 (ix2 k c)) (fun c => x6 (ix1 c)) c := by
  unfold dense leaky affine
  simp only [Read.val_main_v34_apply, Read.val_main_v31_apply, Read.val_main_v33_apply, Read.val_main_v29_apply, Read.val_main_v26_apply, Read.val_main_v28_apply, Read.val_main_v27_apply, Read.val_main_v30_apply, Read.val_main_v32_apply, Read.val_main_cst_4_apply, Read.val_main_cst_5_apply,
    lidx26, ridx26, bidx28,
    Ideal.addf_def, Ideal.mulf_def, Ideal.ofBits_def, Ideal.cmpf_def]

/-- Layer 3 (128 → 64) at edge p, coordinate c. -/
theorem layer3 (p : Fin 800000) (c : Fin 64) :
    Read.val_main_v44 (F := Ideal) x0 x1 x2 x3 x4 x5 x6 x7 x8 (ix2 p c) =
      dense (fun k => Read.val_main_v34 (F := Ideal) x0 x1 x2 x3 x4 x5 x6 (ix2 p k))
        (fun k c => Read.val_main_v35 (F := Ideal) x7 (ix2 k c)) (fun c => x8 (ix1 c)) c := by
  unfold dense leaky affine
  simp only [Read.val_main_v44_apply, Read.val_main_v41_apply, Read.val_main_v43_apply, Read.val_main_v39_apply, Read.val_main_v36_apply, Read.val_main_v38_apply, Read.val_main_v37_apply, Read.val_main_v40_apply, Read.val_main_v42_apply, Read.val_main_cst_6_apply, Read.val_main_cst_7_apply,
    lidx36, ridx36, bidx38,
    Ideal.addf_def, Ideal.mulf_def, Ideal.ofBits_def, Ideal.cmpf_def]

/-- The gate of every edge: the fourth affine map of the three rectified layers, through 1 / (1 + exp(-a)). -/
theorem gate_eq :
    Read.val_main_v55 (F := Ideal) x0 x1 x2 x3 x4 x5 x6 x7 x8 x9 x10 =
      gateArr (Read.val_main_v6 (F := Ideal) x0 x1) (Read.val_main_v13 (F := Ideal) x0 x2) (Read.val_main_v15 (F := Ideal) x3) x4
        (Read.val_main_v25 (F := Ideal) x5) x6 (Read.val_main_v35 (F := Ideal) x7) x8 (Read.val_main_v45 (F := Ideal) x9) x10 := by
  funext i
  obtain ⟨p, q, rfl⟩ : ∃ p q, i = ix2 p q := ⟨i 0, i 1, eq_ix2 i⟩
  change _ = gate (fun k => Read.val_main_v6 (F := Ideal) x0 x1 (ix2 p k)) (fun k => Read.val_main_v13 (F := Ideal) x0 x2 (ix2 p k))
    (fun k c => Read.val_main_v15 (F := Ideal) x3 (ix2 k c)) (fun c => x4 (ix1 c)) (fun k c => Read.val_main_v25 (F := Ideal) x5 (ix2 k c)) (fun c => x6 (ix1 c))
    (fun k c => Read.val_main_v35 (F := Ideal) x7 (ix2 k c)) (fun c => x8 (ix1 c)) (fun k => Read.val_main_v45 (F := Ideal) x9 (ix2 k 0)) (x10 (ix1 0))
  unfold gate affine
  simp only [Read.val_main_v55_apply, Read.val_main_v54_apply, Read.val_main_v53_apply, Read.val_main_v52_apply, Read.val_main_v51_apply, Read.val_main_v50_apply, Read.val_main_v49_apply, Read.val_main_v48_apply, Read.val_main_v47_apply, Read.val_main_v46_apply, Read.val_main_cst_8_apply, Read.val_main_cst_9_apply,
    lidx46, ridx46, bidx48, layer3, layer2, layer1, Ideal.logistic,
    Ideal.addf_def, Ideal.hostDivf_def, Ideal.hostUnary_exp_def, Ideal.hostNegf_def, Ideal.negf_def, Ideal.ofBits_def,
    Ideal.ofBits_one_f32]

/-- Every edge's message: its gate (one column, broadcast along the row) times its gathered source row. -/
theorem msg_eq :
    Read.val_main_v64 (F := Ideal) x0 x1 x2 x3 x4 x5 x6 x7 x8 x9 x10 =
      msgArr (Read.val_main_v55 (F := Ideal) x0 x1 x2 x3 x4 x5 x6 x7 x8 x9 x10) (Read.val_main_v62 (F := Ideal) x0 x1) := by
  funext i
  obtain ⟨p, c, rfl⟩ : ∃ p c, i = ix2 p c := ⟨i 0, i 1, eq_ix2 i⟩
  change _ = Read.val_main_v55 (F := Ideal) x0 x1 x2 x3 x4 x5 x6 x7 x8 x9 x10 (ix2 p 0) * Read.val_main_v62 (F := Ideal) x0 x1 (ix2 p c)
  simp only [Read.val_main_v64_apply, Read.val_main_v63_apply, idx63, Ideal.mulf_def]

end Cert.ReferenceIdeal.RefValue

end
-- ==== Proof.RefValueNode.lean ====
/-
  The printed reference's node update, read one element at a time, is the node row of the specification: two dot
  products, the bias, the rectifier, and the division by the larger of the row's Euclidean norm and ε.  The row sum of
  squares starts from the literal zero, which is evaluated and dropped.  The summed messages and the in-degree stay
  whole arrays throughout.
-/
import proofs.«180253_j17454747091496_2_alg».proof.Proof.Gen.ReferenceIdeal.Read
import proofs.«180253_j17454747091496_2_alg».proof.Proof.Spec
import Idealize.ShloMosaic.Lib.ValueIdx
import Idealize.ShloMosaic.Lib.IdealHost
import Idealize.ShloMosaic.PureOps.Ideal.Laws

noncomputable section

namespace Cert.ReferenceIdeal.RefValue

open Cert.ReferenceIdeal Cert.ReferenceIdeal.Gen Idealize.ShloMosaic Idealize.ShloMosaic.ValueIdx Cert.GraphLayer

variable (x0 : (⟨S100000x64, .f32⟩ : BufTy).Contents (Elt Ideal)) (x1 x2 : (⟨S800000, .i32⟩ : BufTy).Contents (Elt Ideal))
  (x3 : (⟨S256x64, .f32⟩ : BufTy).Contents (Elt Ideal)) (x4 : (⟨S256, .f32⟩ : BufTy).Contents (Elt Ideal))
  (x5 : (⟨S128x256, .f32⟩ : BufTy).Contents (Elt Ideal)) (x6 : (⟨S128, .f32⟩ : BufTy).Contents (Elt Ideal))
  (x7 : (⟨S64x128, .f32⟩ : BufTy).Contents (Elt Ideal)) (x8 : (⟨S64, .f32⟩ : BufTy).Contents (Elt Ideal))
  (x9 : (⟨S1x64, .f32⟩ : BufTy).Contents (Elt Ideal)) (x10 : (⟨S1, .f32⟩ : BufTy).Contents (Elt Ideal))
  (x11 x12 : (⟨S64x64, .f32⟩ : BufTy).Contents (Elt Ideal)) (x13 : (⟨S64, .f32⟩ : BufTy).Contents (Elt Ideal))

/-! ## Index equations: each contraction, broadcast and row-sum index is the coordinate pair one expects -/

theorem lidx78 (p : Fin 100000) (c k : Fin 64) : Read.lidx_main_v78 (ix2 p c) k = ix2 p k :=
  funext fun a => Fin.ext (by match a with | ⟨0, _⟩ => rfl | ⟨1, _⟩ => rfl)
theorem ridx78 (p : Fin 100000) (c k : Fin 64) : Read.ridx_main_v78 (ix2 p c) k = ix2 k c :=
  funext fun a => Fin.ext (by match a with | ⟨0, _⟩ => rfl | ⟨1, _⟩ => rfl)
theorem lidx80 (p : Fin 100000) (c k : Fin 64) : Read.lidx_main_v80 (ix2 p c) k = ix2 p k :=
  funext fun a => Fin.ext (by match a with | ⟨0, _⟩ => rfl | ⟨1, _⟩ => rfl)
theorem ridx80 (p : Fin 100000) (c k : Fin 64) : Read.ridx_main_v80 (ix2 p c) k = ix2 k c :=
  funext fun a => Fin.ext (by match a with | ⟨0, _⟩ => rfl | ⟨1, _⟩ => rfl)
theorem bidx83 (p : Fin 100000) (c : Fin 64) : Read.idx_main_v82 (Read.idx_main_v83 (ix2 p c)) = ix1 c :=
  funext fun a => Fin.ext (by match a with | ⟨0, _⟩ => rfl)
theorem didx75 (p : Fin 100000) (c : Fin 64) : Read.idx_main_v74 (Read.idx_main_v75 (ix2 p c)) = ix1 p :=
  funext fun a => Fin.ext (by match a with | ⟨0, _⟩ => rfl)
theorem nidx93 (p : Fin 100000) (c : Fin 64) : Read.idx_main_call4_v2 (Read.idx_main_v93 (ix2 p c)) = ix1 p :=
  funext fun a => Fin.ext (by match a with | ⟨0, _⟩ => rfl)
theorem sidx (p : Fin 100000) (k : Fin 64) : Read.idx_main_call4_v1 (ix1 p) k = ix2 p k :=
  funext fun a => Fin.ext (by match a with | ⟨0, _⟩ => rfl | ⟨1, _⟩ => rfl)

/-! ## Single operations read at an element

  Each is the generated reading followed by the operation's meaning on the extended reals, composed as an equation, so
  that rewriting with it never asks whether a summed-message or in-degree entry reduces. -/

/-- The mean message at an element: the summed messages over the clamped in-degree. -/
theorem v76_at (i : S100000x64.Idx) :
    Read.val_main_v76 (F := Ideal) x0 x1 x2 x3 x4 x5 x6 x7 x8 x9 x10 i = Ideal.div (Read.val_main_v67 (F := Ideal) x0 x1 x2 x3 x4 x5 x6 x7 x8 x9 x10 i) (Read.val_main_v75 (F := Ideal) x2 i) :=
  (Read.val_main_v76_apply x0 x1 x2 x3 x4 x5 x6 x7 x8 x9 x10 i).trans (Ideal.hostDivf_def _ _)

/-- The clamped in-degree: the larger of the in-degree and the constant beside it. -/
theorem v73_at (i : S100000.Idx) :
    Read.val_main_v73 (F := Ideal) x2 i = max (Read.val_main_v71 (F := Ideal) x2 i) (Read.val_main_v72 (F := Ideal) i) :=
  (Read.val_main_v73_apply x2 i).trans (Ideal.maximumf_def _ _)

/-- That constant is the word of one. -/
theorem one_at (i : S100000.Idx) : Read.val_main_v72 (F := Ideal) i = oneC := by
  simp only [Read.val_main_v72_apply, Read.val_main_cst_15_apply, Ideal.ofBits_def]

/-- The result element: the rectified entry over the clamped norm. -/
theorem v94_at (i : S100000x64.Idx) :
    Read.val_main_v94 (F := Ideal) x0 x1 x2 x3 x4 x5 x6 x7 x8 x9 x10 x11 x12 x13 i = Ideal.div (Read.val_main_v89 (F := Ideal) x0 x1 x2 x3 x4 x5 x6 x7 x8 x9 x10 x11 x12 x13 i) (Read.val_main_v93 (F := Ideal) x0 x1 x2 x3 x4 x5 x6 x7 x8 x9 x10 x11 x12 x13 i) :=
  (Read.val_main_v94_apply x0 x1 x2 x3 x4 x5 x6 x7 x8 x9 x10 x11 x12 x13 i).trans (Ideal.hostDivf_def _ _)

/-- The clamped norm: the larger of the norm and the constant beside it. -/
theorem v92_at (i : S100000x1.Idx) :
    Read.val_main_v92 (F := Ideal) x0 x1 x2 x3 x4 x5 x6 x7 x8 x9 x10 x11 x12 x13 i = max (Read.val_main_v90 (F := Ideal) x0 x1 x2 x3 x4 x5 x6 x7 x8 x9 x10 x11 x12 x13 i) (Read.val_main_v91 (F := Ideal) i) :=
  (Read.val_main_v92_apply x0 x1 x2 x3 x4 x5 x6 x7 x8 x9 x10 x11 x12 x13 i).trans (Ideal.maximumf_def _ _)

/-- That constant is the word of ε. -/
theorem eps_at (i : S100000x1.Idx) : Read.val_main_v91 (F := Ideal) i = epsC := by
  simp only [Read.val_main_v91_apply, Read.val_main_cst_18_apply, Ideal.ofBits_def]

/-- The norm is the square root of the row sum. -/
theorem v90_at (i : S100000x1.Idx) :
    Read.val_main_v90 (F := Ideal) x0 x1 x2 x3 x4 x5 x6 x7 x8 x9 x10 x11 x12 x13 i = Ideal.sqrt (Read.val_main_call4_v2 (F := Ideal) x0 x1 x2 x3 x4 x5 x6 x7 x8 x9 x10 x11 x12 x13 i) :=
  (Read.val_main_v90_apply x0 x1 x2 x3 x4 x5 x6 x7 x8 x9 x10 x11 x12 x13 i).trans (Ideal.hostUnary_sqrt_def _)

/-- The squared entry. -/
theorem sq_at (i : S100000x64.Idx) :
    Read.val_main_call4_v0 (F := Ideal) x0 x1 x2 x3 x4 x5 x6 x7 x8 x9 x10 x11 x12 x13 i = Read.val_main_v89 (F := Ideal) x0 x1 x2 x3 x4 x5 x6 x7 x8 x9 x10 x11 x12 x13 i * Read.val_main_v89 (F := Ideal) x0 x1 x2 x3 x4 x5 x6 x7 x8 x9 x10 x11 x12 x13 i :=
  (Read.val_main_call4_v0_apply x0 x1 x2 x3 x4 x5 x6 x7 x8 x9 x10 x11 x12 x13 i).trans (Ideal.mulf_def _ _)

/-- The row sum of squares at node p: the literal zero it starts from is evaluated and dropped. -/
theorem rowsum_at (p : Fin 100000) :
    Read.val_main_call4_v1 (F := Ideal) x0 x1 x2 x3 x4 x5 x6 x7 x8 x9 x10 x11 x12 x13 (ix1 p) = ∑ k : Fin 64, Read.val_main_v89 (F := Ideal) x0 x1 x2 x3 x4 x5 x6 x7 x8 x9 x10 x11 x12 x13 (ix2 p k) * Read.val_main_v89 (F := Ideal) x0 x1 x2 x3 x4 x5 x6 x7 x8 x9 x10 x11 x12 x13 (ix2 p k) := by
  simp only [Read.val_main_call4_v1_apply, Read.val_main_call4_cst_apply, sidx, sq_at, Ideal.ofBits_def, Ideal.ofBits_zero_f32, zero_add]

/-! ## The node update -/

/-- A node's rectified row before normalisation, at node p, coordinate c. -/
theorem nodePre_eq (p : Fin 100000) (c : Fin 64) :
    Read.val_main_v89 (F := Ideal) x0 x1 x2 x3 x4 x5 x6 x7 x8 x9 x10 x11 x12 x13 (ix2 p c) =
      nodePre (fun k => x0 (ix2 p k)) (fun k => Read.val_main_v67 (F := Ideal) x0 x1 x2 x3 x4 x5 x6 x7 x8 x9 x10 (ix2 p k)) (Read.val_main_v71 (F := Ideal) x2 (ix1 p))
        (fun k c => Read.val_main_v77 (F := Ideal) x11 (ix2 k c)) (fun k c => Read.val_main_v79 (F := Ideal) x12 (ix2 k c)) (fun c => x13 (ix1 c)) c := by
  unfold nodePre leaky
  simp only [Read.val_main_v89_apply, Read.val_main_v86_apply, Read.val_main_v88_apply, Read.val_main_v84_apply, Read.val_main_v81_apply, Read.val_main_v83_apply, Read.val_main_v82_apply, Read.val_main_v85_apply, Read.val_main_v87_apply, Read.val_main_cst_16_apply, Read.val_main_cst_17_apply, Read.val_main_v78_apply, Read.val_main_v80_apply,
    bidx83, lidx78, ridx78, lidx80, ridx80,
    Ideal.addf_def, Ideal.mulf_def, Ideal.ofBits_def, Ideal.cmpf_def]
  simp only [v76_at, Read.val_main_v75_apply, Read.val_main_v74_apply, didx75, v73_at, one_at]

/-- Every node's result row: the rectified row over the larger of its Euclidean norm and ε. -/
theorem node_eq :
    Read.val_main_v94 (F := Ideal) x0 x1 x2 x3 x4 x5 x6 x7 x8 x9 x10 x11 x12 x13 =
      nodeArr x0 (Read.val_main_v67 (F := Ideal) x0 x1 x2 x3 x4 x5 x6 x7 x8 x9 x10) (fun i => Read.val_main_v71 (F := Ideal) x2 (ix1 (i 0)))
        (Read.val_main_v77 (F := Ideal) x11) (Read.val_main_v79 (F := Ideal) x12) x13 := by
  funext i
  obtain ⟨p, c, rfl⟩ : ∃ p c, i = ix2 p c := ⟨i 0, i 1, eq_ix2 i⟩
  change _ = nodeRow (fun k => x0 (ix2 p k)) (fun k => Read.val_main_v67 (F := Ideal) x0 x1 x2 x3 x4 x5 x6 x7 x8 x9 x10 (ix2 p k)) (Read.val_main_v71 (F := Ideal) x2 (ix1 p))
    (fun k c => Read.val_main_v77 (F := Ideal) x11 (ix2 k c)) (fun k c => Read.val_main_v79 (F := Ideal) x12 (ix2 k c)) (fun c => x13 (ix1 c)) c
  unfold nodeRow
  simp only [v94_at, Read.val_main_v93_apply, v92_at, v90_at, Read.val_main_call4_v2_apply, nidx93, rowsum_at, eps_at, nodePre_eq]

end Cert.ReferenceIdeal.RefValue

end
-- ==== Proof.RefValue.lean ====
/-
  The printed reference, read one element at a time, is the graph layer of the specification: the edge gates and
  messages (RefValueEdge: gate_eq, msg_eq) and the node update (RefValueNode: node_eq).
-/
import proofs.«180253_j17454747091496_2_alg».proof.Proof.RefValueEdge
import proofs.«180253_j17454747091496_2_alg».proof.Proof.RefValueNode
-- ==== Proof.Meet.lean ====
/-
  The two programs meet.  With the fourteen arguments paired, the reference's own stages for its two results — the
  gate of every edge and every node's normalised row — are the very functions the kernel's result buffers end at: both
  are the specification's arrays of the same gathered rows, the same transposed weights and the same scatter-added
  messages and in-degrees, term for term.
-/
import proofs.«180253_j17454747091496_2_alg».proof.Proof.KernelValue
import proofs.«180253_j17454747091496_2_alg».proof.Proof.RefValue

set_option maxRecDepth 16384

noncomputable section

namespace Cert.Proof.Meet

open Idealize.ShloMosaic Idealize.ShloMosaic.TcCoe Idealize.ShloMosaic.ValueIdx Idealize.SL.Sem
open Cert.GraphLayer Cert.KernelIdeal.Whole Cert.ReferenceIdeal

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The reference's gate result is the kernel's gate of every edge. -/
theorem gate_agree (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    Cert.ReferenceIdeal.Value.res_main_v55 m' c = gateK m c := by
  obtain ⟨h0, h1, h2, h3, h4, h5, h6, h7, h8, h9, h10, h11, h12, h13⟩ := hagree
  rw [Read.val_main_v55_eq, RefValue.gate_eq, h0, h1, h2, h3, h4, h5, h6, h7, h8, h9, h10]
  rfl

/-- The reference's node result is the kernel's row of every node. -/
theorem node_agree (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    Cert.ReferenceIdeal.Value.res_main_v94 m' c = nodeK m c := by
  obtain ⟨h0, h1, h2, h3, h4, h5, h6, h7, h8, h9, h10, h11, h12, h13⟩ := hagree
  rw [Read.val_main_v94_eq, RefValue.node_eq]
  unfold Read.val_main_v67
  rw [RefValue.msg_eq, RefValue.gate_eq, h0, h1, h2, h3, h4, h5, h6, h7, h8, h9, h10, h11, h12, h13]
  rfl

end Cert.Proof.Meet

end
-- ==== Proof.lean ====
/-
  A graph layer, kernel against reference, on the extended reals.

  Each of the 800000 edges gets a gate in (0, 1): the logistic of a four-layer perceptron (64 → 256 → 128 → 64 → 1,
  leaky rectifiers between) of the difference of its endpoints' rows; its message is the gate times the source row.
  Each of the 100000 nodes sums the messages arriving at it, divides by max(in-degree, 1), adds the result through one
  weight matrix to its own row through another, adds a bias, rectifies, and divides the row by max(‖row‖₂, ε).  The
  program returns the node rows and the gates.

  The kernel computes the gates and messages in blocks of 3200 edges and the node rows in blocks of 4000 nodes, with
  the gathers and scatter-adds done by host operations around the two regions; the reference does everything on whole
  arrays.  On the extended reals a change of float format is the identity, a matrix product into a zero accumulator and
  a host contraction are the same finite sum, a lane sum and a host sum are the same finite sum, and the logistic is
  1 / (1 + exp(-a)) on both sides; the two programs apply the same operations in the same order to the same gathered
  rows, so no law of arithmetic beyond reading each operation at an index is needed, and the inputs' finiteness is
  never used.  Both results are shown to be the specification's arrays (Proof/Spec.lean) of the arguments:
  on the kernel's side from the blocks each grid point writes back (Proof/EdgeRegion.lean, Proof/NodeRegion.lean,
  Proof/KernelValue.lean), on the reference's from its operations read at an index (Proof/RefValue.lean); they meet in
  Proof/Meet.lean.
-/
import proofs.«180253_j17454747091496_2_alg».proof.Defs
import proofs.«180253_j17454747091496_2_alg».proof.Proof.Gen.Kernel
import proofs.«180253_j17454747091496_2_alg».proof.Proof.Gen.Kernel.Frame
import proofs.«180253_j17454747091496_2_alg».proof.Proof.Gen.KernelIdeal
import proofs.«180253_j17454747091496_2_alg».proof.Proof.Gen.KernelIdeal.Frame
import proofs.«180253_j17454747091496_2_alg».proof.Proof.Gen.ReferenceIdeal
import proofs.«180253_j17454747091496_2_alg».proof.Proof.Gen.Pre_finite_inputs
import proofs.«180253_j17454747091496_2_alg».proof.Proof.Gen.ReferenceIdeal.Run
import proofs.«180253_j17454747091496_2_alg».proof.Proof.Gen.ReferenceIdeal.Read
import proofs.«180253_j17454747091496_2_alg».proof.Proof.KernelRun
import proofs.«180253_j17454747091496_2_alg».proof.Proof.KernelValue
import proofs.«180253_j17454747091496_2_alg».proof.Proof.RefValue
import proofs.«180253_j17454747091496_2_alg».proof.Proof.Meet
import Idealize.ShloMosaic.Adequacy
import Idealize.ShloMosaic.Init

noncomputable section

namespace Cert.Proof

open Idealize.ShloMosaic Idealize.SL.Sem

/-- The word-level kernel runs to the end without a fault and leaves its arguments as launched. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the idealized reference: its run with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealized kernel is the kernel's own text read on the extended reals: nothing was rewritten. -/
theorem preserves : Cert.preserves_Kernel_KernelIdeal := trivial

/-- From memories agreeing on the arguments both programs end with every node's row and every edge's gate at the
    same extended reals: the kernel's result buffers at the specification's arrays of its arguments, and the
    reference's result terms equal to those. -/
theorem algebraic : Cert.algebraic_KernelIdeal_ReferenceIdeal := by
  intro m ρ m' ρ' _ hagree
  refine ⟨fun c => Cert.KernelIdeal.Whole.nodeK m c, fun c => Cert.KernelIdeal.Whole.gateK m c, ?_, ?_⟩
  · exact (θ_run Cert.KernelIdeal.defs _ _).mono
      (fun r h c => ⟨(h c).1.trans (Cert.KernelIdeal.Whole.result_node m ρ c),
        (h c).2.1.trans (Cert.KernelIdeal.Whole.result_gate m ρ c), (h c).2.2⟩)
      (Cert.KernelIdeal.Outputs.run_named m ρ)
  · exact (θ_run Cert.ReferenceIdeal.defs _ _).mono
      (fun r h c => ⟨(h c).1.trans (Cert.Proof.Meet.node_agree m m' c (hagree c)),
        (h c).2.1.trans (Cert.Proof.Meet.gate_agree m m' c (hagree c)), (h c).2.2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
